-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x128 : Shape := ⟨4, ![2, 16, 2048, 128]⟩
abbrev S2x16x128x2048 : Shape := ⟨4, ![2, 16, 128, 2048]⟩
abbrev S1x4x1x4x1x1x1 : Shape := ⟨7, ![1, 4, 1, 4, 1, 1, 1]⟩
abbrev S_ : Shape := ⟨0, ![]⟩

class Facts : Prop where
  bcast_S_S2x16x2048x128 : S_.BroadcastsInDim S2x16x2048x128 (![] : Fin 0 → Fin S2x16x2048x128.rank)
  reducesTo_S2x16x2048x128_S_d0_1_2_3 : S2x16x2048x128.ReducesTo [0, 1, 2, 3] S_
  h_S_ : 0 < S_.numel
  bcast_S_S2x16x128x2048 : S_.BroadcastsInDim S2x16x128x2048 (![] : Fin 0 → Fin S2x16x128x2048.rank)
  reducesTo_S2x16x128x2048_S_d0_1_2_3 : S2x16x128x2048.ReducesTo [0, 1, 2, 3] S_
  bcast_S_S1x4x1x4x1x1x1 : S_.BroadcastsInDim S1x4x1x4x1x1x1 (![] : Fin 0 → Fin S1x4x1x4x1x1x1.rank)
  reducesTo_S1x4x1x4x1x1x1_S_d0_1_2_3_4_5_6 : S1x4x1x4x1x1x1.ReducesTo [0, 1, 2, 3, 4, 5, 6] S_

variable [Facts]

def fn_part1 {F : FTy → Type} [FloatOps F] (main_v13 : IVec S_ 1) (main_v16 : IVec S1x4x1x4x1x1x1 1) : IVec S_ 1 :=
  let main_c_5 : IVec S_ 1 := constantI S_ 1 1#1
  let main_v17 : IVec S_ 1 := (fun x v => Host.reduce IntOp.andi x v reducesTo_S1x4x1x4x1x1x1_S_d0_1_2_3_4_5_6 h_S_) main_v16 main_c_5
  let main_v18 : IVec S_ 1 := andi main_v13 main_v17
  main_v18

def fn {F : FTy → Type} [FloatOps F] (main_arg0 : FVec F S2x16x2048x128 .f32) (main_arg1 : FVec F S2x16x128x2048 .f32) (main_arg2 : FVec F S1x4x1x4x1x1x1 .f32) (main_arg3 : FVec F S1x4x1x4x1x1x1 .f32) : IVec S_ 1 :=
  let main_v0 : FVec F S2x16x2048x128 .f32 := Host.absf main_arg0
  let main_cst : FVec F S_ .f32 := constant S_ .f32 0x7F800000#32
  let main_v1 : FVec F S2x16x2048x128 .f32 := broadcastInDim S2x16x2048x128 ![] bcast_S_S2x16x2048x128 main_cst
  let main_v2 : IVec S2x16x2048x128 1 := cmpf .olt main_v0 main_v1
  let main_c : IVec S_ 1 := constantI S_ 1 1#1
  let main_v3 : IVec S_ 1 := (fun x v => Host.reduce IntOp.andi x v reducesTo_S2x16x2048x128_S_d0_1_2_3 h_S_) main_v2 main_c
  let main_v4 : FVec F S2x16x128x2048 .f32 := Host.absf main_arg1
  let main_cst_0 : FVec F S_ .f32 := constant S_ .f32 0x7F800000#32
  let main_v5 : FVec F S2x16x128x2048 .f32 := broadcastInDim S2x16x128x2048 ![] bcast_S_S2x16x128x2048 main_cst_0
  let main_v6 : IVec S2x16x128x2048 1 := cmpf .olt main_v4 main_v5
  let main_c_1 : IVec S_ 1 := constantI S_ 1 1#1
  let main_v7 : IVec S_ 1 := (fun x v => Host.reduce IntOp.andi x v reducesTo_S2x16x128x2048_S_d0_1_2_3 h_S_) main_v6 main_c_1
  let main_v8 : IVec S_ 1 := andi main_v3 main_v7
  let main_v9 : FVec F S1x4x1x4x1x1x1 .f32 := Host.absf main_arg2
  let main_cst_2 : FVec F S_ .f32 := constant S_ .f32 0x7F800000#32
  let main_v10 : FVec F S1x4x1x4x1x1x1 .f32 := broadcastInDim S1x4x1x4x1x1x1 ![] bcast_S_S1x4x1x4x1x1x1 main_cst_2
  let main_v11 : IVec S1x4x1x4x1x1x1 1 := cmpf .olt main_v9 main_v10
  let main_c_3 : IVec S_ 1 := constantI S_ 1 1#1
  let main_v12 : IVec S_ 1 := (fun x v => Host.reduce IntOp.andi x v reducesTo_S1x4x1x4x1x1x1_S_d0_1_2_3_4_5_6 h_S_) main_v11 main_c_3
  let main_v13 : IVec S_ 1 := andi main_v8 main_v12
  let main_v14 : FVec F S1x4x1x4x1x1x1 .f32 := Host.absf main_arg3
  let main_cst_4 : FVec F S_ .f32 := constant S_ .f32 0x7F800000#32
  let main_v15 : FVec F S1x4x1x4x1x1x1 .f32 := broadcastInDim S1x4x1x4x1x1x1 ![] bcast_S_S1x4x1x4x1x1x1 main_cst_4
  let main_v16 : IVec S1x4x1x4x1x1x1 1 := cmpf .olt main_v14 main_v15
  fn_part1 (F := F) main_v13 main_v16
-- ==== Kernel.lean ====
abbrev S2x16x2048x128 : Shape := ⟨4, ![2, 16, 2048, 128]⟩
abbrev S2x16x128x2048 : Shape := ⟨4, ![2, 16, 128, 2048]⟩
abbrev S1x4x1x4x1x1x1 : Shape := ⟨7, ![1, 4, 1, 4, 1, 1, 1]⟩
abbrev S4x4 : Shape := ⟨2, ![4, 4]⟩
abbrev S16 : Shape := ⟨1, ![16]⟩
abbrev S_ : Shape := ⟨0, ![]⟩
abbrev S16x1 : Shape := ⟨2, ![16, 1]⟩
abbrev S16x4 : Shape := ⟨2, ![16, 4]⟩
abbrev S16x4x512 : Shape := ⟨3, ![16, 4, 512]⟩
abbrev S16x2048 : Shape := ⟨2, ![16, 2048]⟩
abbrev S1x16x2048 : Shape := ⟨3, ![1, 16, 2048]⟩
abbrev S2x16x2048 : Shape := ⟨3, ![2, 16, 2048]⟩
abbrev S2x16x2048x1 : Shape := ⟨4, ![2, 16, 2048, 1]⟩
abbrev S16x4x32 : Shape := ⟨3, ![16, 4, 32]⟩
abbrev S16x128 : Shape := ⟨2, ![16, 128]⟩
abbrev S1x16x128 : Shape := ⟨3, ![1, 16, 128]⟩
abbrev S2x16x128 : Shape := ⟨3, ![2, 16, 128]⟩
abbrev S2x16x1x128 : Shape := ⟨4, ![2, 16, 1, 128]⟩
abbrev S2x16x128x1 : Shape := ⟨4, ![2, 16, 128, 1]⟩
abbrev S2x16x2048x2048 : Shape := ⟨4, ![2, 16, 2048, 2048]⟩
abbrev S1x1x1024x1 : Shape := ⟨4, ![1, 1, 1024, 1]⟩
abbrev S1x1x1x128 : Shape := ⟨4, ![1, 1, 1, 128]⟩
abbrev S1x1x128x1 : Shape := ⟨4, ![1, 1, 128, 1]⟩
abbrev S1x1x1024x128 : Shape := ⟨4, ![1, 1, 1024, 128]⟩
abbrev S1x1x128x2048 : Shape := ⟨4, ![1, 1, 128, 2048]⟩
abbrev S1x1x1024x2048 : Shape := ⟨4, ![1, 1, 1024, 2048]⟩
abbrev S1024x1 : Shape := ⟨2, ![1024, 1]⟩
abbrev S1x128 : Shape := ⟨2, ![1, 128]⟩
abbrev S128x1 : Shape := ⟨2, ![128, 1]⟩
abbrev S1024x128 : Shape := ⟨2, ![1024, 128]⟩
abbrev S128x2048 : Shape := ⟨2, ![128, 2048]⟩
abbrev S1024x2048 : Shape := ⟨2, ![1024, 2048]⟩

abbrev nBuf : Space → Nat
  | .hbm => 57
  | .vmem => 12
  | .smem => 0
  | _ => 0

abbrev bufTy : (tb : Table) → Fin (tcTables nBuf tb) → BufTy
  | .hbm, ⟨0, _⟩ => ⟨S2x16x2048x128, .f32⟩
  | .hbm, ⟨1, _⟩ => ⟨S2x16x128x2048, .f32⟩
  | .hbm, ⟨2, _⟩ => ⟨S1x4x1x4x1x1x1, .f32⟩
  | .hbm, ⟨3, _⟩ => ⟨S1x4x1x4x1x1x1, .f32⟩
  | .hbm, ⟨4, _⟩ => ⟨S4x4, .f32⟩
  | .hbm, ⟨5, _⟩ => ⟨S4x4, .f32⟩
  | .hbm, ⟨6, _⟩ => ⟨S16, .i32⟩
  | .hbm, ⟨7, _⟩ => ⟨S_, .i32⟩
  | .hbm, ⟨8, _⟩ => ⟨S_, .i32⟩
  | .hbm, ⟨9, _⟩ => ⟨S16, .i32⟩
  | .hbm, ⟨10, _⟩ => ⟨S16, .i32⟩
  | .hbm, ⟨11, _⟩ => ⟨S16, .i32⟩
  | .hbm, ⟨12, _⟩ => ⟨S_, .i32⟩
  | .hbm, ⟨13, _⟩ => ⟨S16, .i32⟩
  | .hbm, ⟨14, _⟩ => ⟨S16, .i1⟩
  | .hbm, ⟨15, _⟩ => ⟨S16, .i32⟩
  | .hbm, ⟨16, _⟩ => ⟨S16, .i32⟩
  | .hbm, ⟨17, _⟩ => ⟨S_, .i32⟩
  | .hbm, ⟨18, _⟩ => ⟨S16, .i32⟩
  | .hbm, ⟨19, _⟩ => ⟨S16, .i1⟩
  | .hbm, ⟨20, _⟩ => ⟨S16, .i1⟩
  | .hbm, ⟨21, _⟩ => ⟨S_, .i32⟩
  | .hbm, ⟨22, _⟩ => ⟨S16, .i32⟩
  | .hbm, ⟨23, _⟩ => ⟨S16, .i32⟩
  | .hbm, ⟨24, _⟩ => ⟨S16, .i32⟩
  | .hbm, ⟨25, _⟩ => ⟨S_, .i32⟩
  | .hbm, ⟨26, _⟩ => ⟨S16, .i32⟩
  | .hbm, ⟨27, _⟩ => ⟨S16, .i1⟩
  | .hbm, ⟨28, _⟩ => ⟨S_, .i32⟩
  | .hbm, ⟨29, _⟩ => ⟨S16, .i32⟩
  | .hbm, ⟨30, _⟩ => ⟨S16, .i32⟩
  | .hbm, ⟨31, _⟩ => ⟨S16, .i32⟩
  | .hbm, ⟨32, _⟩ => ⟨S16x1, .i32⟩
  | .hbm, ⟨33, _⟩ => ⟨S16x4, .f32⟩
  | .hbm, ⟨34, _⟩ => ⟨S16x4x512, .f32⟩
  | .hbm, ⟨35, _⟩ => ⟨S16x2048, .f32⟩
  | .hbm, ⟨36, _⟩ => ⟨S1x16x2048, .f32⟩
  | .hbm, ⟨37, _⟩ => ⟨S2x16x2048, .f32⟩
  | .hbm, ⟨38, _⟩ => ⟨S2x16x2048x1, .f32⟩
  | .hbm, ⟨39, _⟩ => ⟨S_, .i32⟩
  | .hbm, ⟨40, _⟩ => ⟨S16, .i32⟩
  | .hbm, ⟨41, _⟩ => ⟨S16, .i1⟩
  | .hbm, ⟨42, _⟩ => ⟨S_, .i32⟩
  | .hbm, ⟨43, _⟩ => ⟨S16, .i32⟩
  | .hbm, ⟨44, _⟩ => ⟨S16, .i32⟩
  | .hbm, ⟨45, _⟩ => ⟨S16, .i32⟩
  | .hbm, ⟨46, _⟩ => ⟨S16x1, .i32⟩
  | .hbm, ⟨47, _⟩ => ⟨S16x4, .f32⟩
  | .hbm, ⟨48, _⟩ => ⟨S16x4x32, .f32⟩
  | .hbm, ⟨49, _⟩ => ⟨S16x128, .f32⟩
  | .hbm, ⟨50, _⟩ => ⟨S1x16x128, .f32⟩
  | .hbm, ⟨51, _⟩ => ⟨S2x16x128, .f32⟩
  | .hbm, ⟨52, _⟩ => ⟨S2x16x1x128, .f32⟩
  | .hbm, ⟨53, _⟩ => ⟨S1x16x128, .f32⟩
  | .hbm, ⟨54, _⟩ => ⟨S2x16x128, .f32⟩
  | .hbm, ⟨55, _⟩ => ⟨S2x16x128x1, .f32⟩
  | .hbm, ⟨56, _⟩ => ⟨S2x16x2048x2048, .f32⟩
  | .local _ .vmem, ⟨0, _⟩ => ⟨S1x1x1024x1, .f32⟩
  | .local _ .vmem, ⟨1, _⟩ => ⟨S1x1x1024x1, .f32⟩
  | .local _ .vmem, ⟨2, _⟩ => ⟨S1x1x1x128, .f32⟩
  | .local _ .vmem, ⟨3, _⟩ => ⟨S1x1x1x128, .f32⟩
  | .local _ .vmem, ⟨4, _⟩ => ⟨S1x1x128x1, .f32⟩
  | .local _ .vmem, ⟨5, _⟩ => ⟨S1x1x128x1, .f32⟩
  | .local _ .vmem, ⟨6, _⟩ => ⟨S1x1x1024x128, .f32⟩
  | .local _ .vmem, ⟨7, _⟩ => ⟨S1x1x1024x128, .f32⟩
  | .local _ .vmem, ⟨8, _⟩ => ⟨S1x1x128x2048, .f32⟩
  | .local _ .vmem, ⟨9, _⟩ => ⟨S1x1x128x2048, .f32⟩
  | .local _ .vmem, ⟨10, _⟩ => ⟨S1x1x1024x2048, .f32⟩
  | .local _ .vmem, ⟨11, _⟩ => ⟨S1x1x1024x2048, .f32⟩
  | _, _ => ⟨S2x16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v3 : Ref sig .tc := ⟨.hbm, 24, rfl⟩
abbrev main_c_0 : Ref sig .tc := ⟨.hbm, 25, rfl⟩
abbrev main_v4 : Ref sig .tc := ⟨.hbm, 26, rfl⟩
abbrev main_v5 : Ref sig .tc := ⟨.hbm, 27, rfl⟩
abbrev main_c_1 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_c_2 : Ref sig .tc := ⟨.hbm, 39, rfl⟩
abbrev main_v16 : Ref sig .tc := ⟨.hbm, 40, rfl⟩
abbrev main_v17 : Ref sig .tc := ⟨.hbm, 41, rfl⟩
abbrev main_c_3 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 16, 2], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  shapeCasts_S1x4x1x4x1x1x1_S4x4 : S1x4x1x4x1x1x1.ShapeCasts S4x4
  bcast_S_S16 : S_.BroadcastsInDim S16 (![] : Fin 0 → Fin S16.rank)
  bcast_S16_S16x1_0 : S16.BroadcastsInDim S16x1 (![0] : Fin 1 → Fin S16x1.rank)
  bcast_S16x4_S16x4x512_0_1 : S16x4.BroadcastsInDim S16x4x512 (![0, 1] : Fin 2 → Fin S16x4x512.rank)
  shapeCasts_S16x4x512_S16x2048 : S16x4x512.ShapeCasts S16x2048
  bcast_S16x2048_S1x16x2048_1_2 : S16x2048.BroadcastsInDim S1x16x2048 (![1, 2] : Fin 2 → Fin S1x16x2048.rank)
  bcast_S1x16x2048_S2x16x2048_0_1_2 : S1x16x2048.BroadcastsInDim S2x16x2048 (![0, 1, 2] : Fin 3 → Fin S2x16x2048.rank)
  shapeCasts_S2x16x2048_S2x16x2048x1 : S2x16x2048.ShapeCasts S2x16x2048x1
  bcast_S16x4_S16x4x32_0_1 : S16x4.BroadcastsInDim S16x4x32 (![0, 1] : Fin 2 → Fin S16x4x32.rank)
  shapeCasts_S16x4x32_S16x128 : S16x4x32.ShapeCasts S16x128
  bcast_S16x128_S1x16x128_1_2 : S16x128.BroadcastsInDim S1x16x128 (![1, 2] : Fin 2 → Fin S1x16x128.rank)
  bcast_S1x16x128_S2x16x128_0_1_2 : S1x16x128.BroadcastsInDim S2x16x128 (![0, 1, 2] : Fin 3 → Fin S2x16x128.rank)
  shapeCasts_S2x16x128_S2x16x1x128 : S2x16x128.ShapeCasts S2x16x1x128
  shapeCasts_S2x16x128_S2x16x128x1 : S2x16x128.ShapeCasts S2x16x128x1
  inb_S1x1x1024x1_S1x1x1024x1_0_0_0_0 : ∀ a, (![0, 0, 0, 0] : Fin 4 → Nat) a + S1x1x1024x1.size a ≤ S1x1x1024x1.size a
  h_S1x1x1024x1 : 0 < S1x1x1024x1.numel
  shapeCasts_S1x1x1024x1_S1024x1 : S1x1x1024x1.ShapeCasts S1024x1
  inb_S1x1x1x128_S1x1x1x128_0_0_0_0 : ∀ a, (![0, 0, 0, 0] : Fin 4 → Nat) a + S1x1x1x128.size a ≤ S1x1x1x128.size a
  h_S1x1x1x128 : 0 < S1x1x1x128.numel
  shapeCasts_S1x1x1x128_S1x128 : S1x1x1x128.ShapeCasts S1x128
  inb_S1x1x128x1_S1x1x128x1_0_0_0_0 : ∀ a, (![0, 0, 0, 0] : Fin 4 → Nat) a + S1x1x128x1.size a ≤ S1x1x128x1.size a
  h_S1x1x128x1 : 0 < S1x1x128x1.numel
  shapeCasts_S1x1x128x1_S128x1 : S1x1x128x1.ShapeCasts S128x1
  inb_S1x1x1024x128_S1x1x1024x128_0_0_0_0 : ∀ a, (![0, 0, 0, 0] : Fin 4 → Nat) a + S1x1x1024x128.size a ≤ S1x1x1024x128.size a
  h_S1x1x1024x128 : 0 < S1x1x1024x128.numel
  shapeCasts_S1x1x1024x128_S1024x128 : S1x1x1024x128.ShapeCasts S1024x128
  inb_S1x1x128x2048_S1x1x128x2048_0_0_0_0 : ∀ a, (![0, 0, 0, 0] : Fin 4 → Nat) a + S1x1x128x2048.size a ≤ S1x1x128x2048.size a
  h_S1x1x128x2048 : 0 < S1x1x128x2048.numel
  shapeCasts_S1x1x128x2048_S128x2048 : S1x1x128x2048.ShapeCasts S128x2048
  broadcasts_S1024x1_S1024x128 : S1024x1.Broadcasts S1024x128
  broadcasts_S1x128_S1024x128 : S1x128.Broadcasts S1024x128
  bitsLt_bf16_f32 : FTy.bits .bf16 < FTy.bits .f32
  broadcasts_S128x1_S128x2048 : S128x1.Broadcasts S128x2048
  inb_S1x1x1024x2048_S1x1x1024x2048_0_0_0_0 : ∀ a, (![0, 0, 0, 0] : Fin 4 → Nat) a + S1x1x1024x2048.size a ≤ S1x1x1024x2048.size a
  h_S1x1x1024x2048 : 0 < S1x1x1024x2048.numel
  shapeCasts_S1x1x1024x2048_S1024x2048 : S1x1x1024x2048.ShapeCasts S1024x2048
  shapeCasts_S1024x2048_S1x1x1024x2048 : S1024x2048.ShapeCasts S1x1x1024x2048
  gather_S4x4_S16x1_S16x4_1_0_n_n_0_1_14_wf : GatherDims.WF S4x4 S16x1 S16x4 [1] [0] [] [0] [] 1 ![1, 4]
  dot_S1024x128_S128x2048_S1024x2048_1_0_0_1_n_n_wf : DotDims.WF S1024x128 S128x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x1.size a ≤ S2x16x2048x1.size a
  hwx0_0 : ∀ i : grid0.Coords, EltTy.bits .f32 = 32 ∨ (Rect.block (s := S2x16x2048x1) S1x1x1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1x128.size a ≤ S2x16x1x128.size a
  hwx0_1 : ∀ i : grid0.Coords, EltTy.bits .f32 = 32 ∨ (Rect.block (s := S2x16x1x128) S1x1x1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128x1.size a ≤ S2x16x128x1.size a
  hwx0_2 : ∀ i : grid0.Coords, EltTy.bits .f32 = 32 ∨ (Rect.block (s := S2x16x128x1) S1x1x128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024x128.size a ≤ S2x16x2048x128.size a
  hwx0_3 : ∀ i : grid0.Coords, EltTy.bits .f32 = 32 ∨ (Rect.block (s := S2x16x2048x128) S1x1x1024x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128x2048.size a ≤ S2x16x128x2048.size a
  hwx0_4 : ∀ i : grid0.Coords, EltTy.bits .f32 = 32 ∨ (Rect.block (s := S2x16x128x2048) S1x1x128x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1024x2048.size a ≤ S2x16x2048x2048.size a
  hwx0_5 : ∀ i : grid0.Coords, EltTy.bits .f32 = 32 ∨ (Rect.block (s := S2x16x2048x2048) S1x1x1024x2048.size (cc0_transform_5 i) (hinb0_5 i)).WholeWords (EltTy.packing .f32)

variable [Facts₀]

def gather_S4x4_S16x1_S16x4_1_0_n_n_0_1_14 : GatherDims S4x4 S16x1 S16x4 where
  offsetDims := [1]
  collapsedSliceDims := [0]
  operandBatchingDims := []
  startIndicesBatchingDims := []
  startIndexMap := [0]
  indexVectorDim := 1
  sliceSizes := ![1, 4]
  wf := gather_S4x4_S16x1_S16x4_1_0_n_n_0_1_14_wf
def dot_S1024x128_S128x2048_S1024x2048_1_0_0_1_n_n : DotDims S1024x128 S128x2048 S1024x2048 where
  lhsContracting := [1]
  rhsContracting := [0]
  lhsNonContracting := [0]
  rhsNonContracting := [1]
  lhsBatch := []
  rhsBatch := []
  wf := dot_S1024x128_S128x2048_S1024x2048_1_0_0_1_n_n_wf

abbrev win0_0 : Pipeline.Window sig grid0 :=
  Pipeline.Window.ofSpec (Memref.whole main_v15) S1x1x1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S1x1x1x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x1x128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S1x1x1024x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S1x1x128x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v31) S1x1x1024x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x16x2048x128 : Shape := ⟨4, ![2, 16, 2048, 128]⟩
abbrev S2x16x128x2048 : Shape := ⟨4, ![2, 16, 128, 2048]⟩
abbrev S1x4x1x4x1x1x1 : Shape := ⟨7, ![1, 4, 1, 4, 1, 1, 1]⟩
abbrev S2x4x4x4x512x1x128 : Shape := ⟨7, ![2, 4, 4, 4, 512, 1, 128]⟩
abbrev S_ : Shape := ⟨0, ![]⟩
abbrev S2x4x4x4x32x1x2048 : Shape := ⟨7, ![2, 4, 4, 4, 32, 1, 2048]⟩
abbrev S2x16x2048x2048 : Shape := ⟨4, ![2, 16, 2048, 2048]⟩

abbrev nBuf : Space → Nat
  | .hbm => 35
  | .vmem => 0
  | .smem => 0
  | _ => 0

abbrev bufTy : (tb : Table) → Fin (tcTables nBuf tb) → BufTy
  | .hbm, ⟨0, _⟩ => ⟨S2x16x2048x128, .f32⟩
  | .hbm, ⟨1, _⟩ => ⟨S2x16x128x2048, .f32⟩
  | .hbm, ⟨2, _⟩ => ⟨S1x4x1x4x1x1x1, .f32⟩
  | .hbm, ⟨3, _⟩ => ⟨S1x4x1x4x1x1x1, .f32⟩
  | .hbm, ⟨4, _⟩ => ⟨S2x4x4x4x512x1x128, .f32⟩
  | .hbm, ⟨5, _⟩ => ⟨S2x4x4x4x512x1x128, .f32⟩
  | .hbm, ⟨6, _⟩ => ⟨S2x4x4x4x512x1x128, .f32⟩
  | .hbm, ⟨7, _⟩ => ⟨S2x4x4x4x512x1x128, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S2x4x4x4x512x1x128, .f32⟩
  | .hbm, ⟨12, _⟩ => ⟨S2x4x4x4x512x1x128, .f32⟩
  | .hbm, ⟨13, _⟩ => ⟨S_, .f32⟩
  | .hbm, ⟨14, _⟩ => ⟨S2x4x4x4x512x1x128, .f32⟩
  | .hbm, ⟨15, _⟩ => ⟨S2x4x4x4x512x1x128, .f32⟩
  | .hbm, ⟨16, _⟩ => ⟨S2x4x4x4x512x1x128, .f32⟩
  | .hbm, ⟨17, _⟩ => ⟨S2x4x4x4x512x1x128, .f32⟩
  | .hbm, ⟨18, _⟩ => ⟨S2x16x2048x128, .f32⟩
  | .hbm, ⟨19, _⟩ => ⟨S2x4x4x4x32x1x2048, .f32⟩
  | .hbm, ⟨20, _⟩ => ⟨S2x4x4x4x32x1x2048, .f32⟩
  | .hbm, ⟨21, _⟩ => ⟨S2x4x4x4x32x1x2048, .f32⟩
  | .hbm, ⟨22, _⟩ => ⟨S2x4x4x4x32x1x2048, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S2x4x4x4x32x1x2048, .f32⟩
  | .hbm, ⟨27, _⟩ => ⟨S2x4x4x4x32x1x2048, .f32⟩
  | .hbm, ⟨28, _⟩ => ⟨S_, .f32⟩
  | .hbm, ⟨29, _⟩ => ⟨S2x4x4x4x32x1x2048, .f32⟩
  | .hbm, ⟨30, _⟩ => ⟨S2x4x4x4x32x1x2048, .f32⟩
  | .hbm, ⟨31, _⟩ => ⟨S2x4x4x4x32x1x2048, .f32⟩
  | .hbm, ⟨32, _⟩ => ⟨S2x4x4x4x32x1x2048, .f32⟩
  | .hbm, ⟨33, _⟩ => ⟨S2x16x128x2048, .f32⟩
  | .hbm, ⟨34, _⟩ => ⟨S2x16x2048x2048, .f32⟩
  | _, _ => ⟨S2x16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_cst_0 : Ref sig .tc := ⟨.hbm, 9, rfl⟩
abbrev main_call1_v0 : Ref sig .tc := ⟨.hbm, 10, rfl⟩
abbrev main_call1_v1 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_cst_2 : Ref sig .tc := ⟨.hbm, 24, rfl⟩
abbrev main_call3_v0 : Ref sig .tc := ⟨.hbm, 25, rfl⟩
abbrev main_call3_v1 : Ref sig .tc := ⟨.hbm, 26, rfl⟩
abbrev main_call3_v2 : Ref sig .tc := ⟨.hbm, 27, rfl⟩
abbrev main_call3_v3 : Ref sig .tc := ⟨.hbm, 28, rfl⟩
abbrev main_call3_v4 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩

abbrev nD : Nat := 1
abbrev τ : Topo := Topo.v7x

variable {F : FTy → Type} [FloatOps F]

class Facts₀ : Prop where
  shapeCasts_S2x16x2048x128_S2x4x4x4x512x1x128 : S2x16x2048x128.ShapeCasts S2x4x4x4x512x1x128
  bcast_S1x4x1x4x1x1x1_S2x4x4x4x512x1x128_0_1_2_3_4_5_6 : S1x4x1x4x1x1x1.BroadcastsInDim S2x4x4x4x512x1x128 (![0, 1, 2, 3, 4, 5, 6] : Fin 7 → Fin S2x4x4x4x512x1x128.rank)
  bcast_S_S2x4x4x4x512x1x128 : S_.BroadcastsInDim S2x4x4x4x512x1x128 (![] : Fin 0 → Fin S2x4x4x4x512x1x128.rank)
  shapeCasts_S2x4x4x4x512x1x128_S2x16x2048x128 : S2x4x4x4x512x1x128.ShapeCasts S2x16x2048x128
  shapeCasts_S2x16x128x2048_S2x4x4x4x32x1x2048 : S2x16x128x2048.ShapeCasts S2x4x4x4x32x1x2048
  bcast_S1x4x1x4x1x1x1_S2x4x4x4x32x1x2048_0_1_2_3_4_5_6 : S1x4x1x4x1x1x1.BroadcastsInDim S2x4x4x4x32x1x2048 (![0, 1, 2, 3, 4, 5, 6] : Fin 7 → Fin S2x4x4x4x32x1x2048.rank)
  bcast_S_S2x4x4x4x32x1x2048 : S_.BroadcastsInDim S2x4x4x4x32x1x2048 (![] : Fin 0 → Fin S2x4x4x4x32x1x2048.rank)
  shapeCasts_S2x4x4x4x32x1x2048_S2x16x128x2048 : S2x4x4x4x32x1x2048.ShapeCasts S2x16x128x2048
  dot_S2x16x2048x128_S2x16x128x2048_S2x16x2048x2048_3_2_2_3_01_01_wf : DotDims.WF S2x16x2048x128 S2x16x128x2048 S2x16x2048x2048 [3] [2] [2] [3] [0, 1] [0, 1]

variable [Facts₀]

def dot_S2x16x2048x128_S2x16x128x2048_S2x16x2048x2048_3_2_2_3_01_01 : DotDims S2x16x2048x128 S2x16x128x2048 S2x16x2048x2048 where
  lhsContracting := [3]
  rhsContracting := [2]
  lhsNonContracting := [2]
  rhsNonContracting := [3]
  lhsBatch := [0, 1]
  rhsBatch := [0, 1]
  wf := dot_S2x16x2048x128_S2x16x128x2048_S2x16x2048x2048_3_2_2_3_01_01_wf

class Facts : Prop extends Facts₀ where

variable [Facts]
-- ==== Proof.LibRank7.lean ====
/-
  Rank-7 indices by coordinates.

  ix7 builds an index of a rank-7 shape from its seven coordinates, eq_ix7 says every rank-7 index is of that form, and
  rowMajor_val_seven writes its row-major position as one sum of products
      ((((((i0 * d1 + i1) * d2 + i2) * d3 + i3) * d4 + i4) * d5 + i5) * d6 + i6,
  the form in which linear arithmetic decides that a reshape to or from rank 7 keeps positions (the library has ranks
  one to six). A blockwise quantiser that views [B, G, R, C] as [B, ng, G/ng, nv, R/nv, nh, C/nh] reshapes through rank 7.
-/
import Idealize.ShloMosaic.Lib.ValueIdx

namespace Cert.Rank7

open Idealize.ShloMosaic

/-- A rank-7 index from its coordinates. -/
abbrev ix7 {n0 n1 n2 n3 n4 n5 n6 : Nat} (a : Fin n0) (b : Fin n1) (c : Fin n2) (d : Fin n3) (e : Fin n4) (f : Fin n5)
    (g : Fin n6) : (⟨7, ![n0, n1, n2, n3, n4, n5, n6]⟩ : Shape).Idx :=
  fun z => match z with | ⟨0, _⟩ => a | ⟨1, _⟩ => b | ⟨2, _⟩ => c | ⟨3, _⟩ => d | ⟨4, _⟩ => e | ⟨5, _⟩ => f | ⟨6, _⟩ => g

/-- Every rank-7 index is ix7 of its coordinates. -/
theorem eq_ix7 {n0 n1 n2 n3 n4 n5 n6 : Nat} (j : (⟨7, ![n0, n1, n2, n3, n4, n5, n6]⟩ : Shape).Idx) :
    j = ix7 (j 0) (j 1) (j 2) (j 3) (j 4) (j 5) (j 6) := by
  funext a
  match a with
  | ⟨0, _⟩ => rfl | ⟨1, _⟩ => rfl | ⟨2, _⟩ => rfl | ⟨3, _⟩ => rfl | ⟨4, _⟩ => rfl | ⟨5, _⟩ => rfl | ⟨6, _⟩ => rfl

/-- The row-major position of a rank-7 index as one sum of products. -/
theorem rowMajor_val_seven {d : Fin 7 → Nat} (i : (⟨7, d⟩ : Shape).Idx) :
    ((⟨7, d⟩ : Shape).rowMajor i).val
      = ((((((i 0).val * d 1 + (i 1).val) * d 2 + (i 2).val) * d 3 + (i 3).val) * d 4 + (i 4).val) * d 5 + (i 5).val) * d 6
          + (i 6).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val]
  simp [Shape.rowMajorPi_zero, Fin.prod_univ_succ, Nat.add_mul, Nat.mul_assoc, Nat.add_assoc]

end Cert.Rank7
-- ==== Proof.QuantSpec.lean ====
/-
  Blockwise fake quantisation of the two operands of a batched matrix product, over the extended reals.

  A is [2, 16, 2048, 128] (batch, head, row, depth) and B is [2, 16, 128, 2048] (batch, head, depth, column). Each
  operand has a table of quantisation steps stored as [1, 4, 1, 4, 1, 1, 1]: entry (g, v) is the step of head group g
  (four consecutive heads) and of block v of the quantised axis. For A that axis is the row axis, cut into four blocks
  of 512 rows; for B it is the depth axis, cut into four blocks of 32. An entry x with step s is replaced by
      fake x s = level x s * s,     level x s = min 127 (max (-128) (roundHalfEven (x / s))),
  and the result at (b, h, r, n) is the sum over the depth k of  fake A(b,h,r,k) sA(h,r) * fake B(b,h,k,n) sB(h,k).

  A kernel may move B's step onto A's side of each product: ((level a * sA) * sB) * level b. Multiplication of
  extended reals is commutative and associative, so this is the same product, whatever the values (no finiteness
  is needed).
-/
import Idealize.ShloMosaic.PureOps.Ideal
import Idealize.ShloMosaic.Lib.ValueIdx
import proofs.«111576_j68839735820689_2_alg».proof.Proof.LibRank7

noncomputable section

open scoped BigOperators

namespace Cert.QuantMatmul

open Idealize.ShloMosaic Idealize.ShloMosaic.ValueIdx

/-! ## Rank-7 indices by coordinates (Proof/LibRank7.lean) -/

export Cert.Rank7 (ix7 rowMajor_val_seven)

/-! ## The blocks of the quantised axes -/

/-- The head group of head h: four consecutive heads share a group. -/
def grp (h : Fin 16) : Fin 4 := ⟨h.val / 4, by have := h.isLt; omega⟩
/-- The block of row r of A: 512 consecutive rows share a block. -/
def rowBlk (r : Fin 2048) : Fin 4 := ⟨r.val / 512, by have := r.isLt; omega⟩
/-- The block of depth k of B: 32 consecutive depths share a block. -/
def depthBlk (k : Fin 128) : Fin 4 := ⟨k.val / 32, by have := k.isLt; omega⟩

/-- Entry (g, v) of a table of steps stored as [1, 4, 1, 4, 1, 1, 1]. -/
def stepAt (I : FVec Ideal (⟨7, ![1, 4, 1, 4, 1, 1, 1]⟩ : Shape) .f32) (g v : Fin 4) : Ideal .f32 :=
  I (ix7 0 g 0 v 0 0 0)

/-! ## Fake quantisation and the product -/

/-- The quantisation level of x at step s: x / s rounded to nearest, ties to even, clamped to [-128, 127]. -/
def level (x s : Ideal .f32) : Ideal .f32 :=
  min (Ideal.ofBits .f32 0x42FE0000#32)
    (max (Ideal.ofBits .f32 0xC3000000#32) (Ideal.liftRound Ideal.roundHalfEven (Ideal.div x s)))

/-- The fake-quantised value: the level times the step. -/
def fake (x s : Ideal .f32) : Ideal .f32 := level x s * s

/-- The product of the two fake-quantised operands, entry by entry. -/
def product (A : FVec Ideal (⟨4, ![2, 16, 2048, 128]⟩ : Shape) .f32) (B : FVec Ideal (⟨4, ![2, 16, 128, 2048]⟩ : Shape) .f32)
    (IA IB : FVec Ideal (⟨7, ![1, 4, 1, 4, 1, 1, 1]⟩ : Shape) .f32) :
    FVec Ideal (⟨4, ![2, 16, 2048, 2048]⟩ : Shape) .f32 :=
  fun i => ∑ k : Fin 128,
    fake (A (ix4 (i 0) (i 1) (i 2) k)) (stepAt IA (grp (i 1)) (rowBlk (i 2)))
      * fake (B (ix4 (i 0) (i 1) k (i 3))) (stepAt IB (grp (i 1)) (depthBlk k))

/-- B's step moved onto A's side of a product. -/
theorem step_across (la sa sb lb : Ideal .f32) : ((la * sa) * sb) * lb = (la * sa) * (lb * sb) := by
  rw [mul_assoc, mul_comm sb lb]

end Cert.QuantMatmul

end
-- ==== Proof.LibSegmentRows.lean ====
/-
  Rows gathered and rows scatter-added, read at an entry; and the law that a linear map applied to every row commutes
  with a weighted segment sum of rows.

  A graph layer aggregates over edges: for every edge e it takes row src(e) of a node table x : [N, C]
  (stablehlo.gather with offset_dims [1], collapsed_slice_dims [0], start_index_map [0], index_vector_dim 1 and slice
  sizes [1, C], the start indices an [E, 1] integer array), scales the row by the edge's weight, and adds it into row
  tgt(e) of a zero [N, C] table (stablehlo.scatter with an add body, update_window_dims [1], inserted_window_dims [0],
  scatter_dims_to_operand_dims [0], index_vector_dim 1, the scatter indices again an [E, 1] integer array).

  Read at the extended reals:
    * the gathered array at (e, c) is x at (row e, c), where row e is the start index of edge e read as a signed
      integer and clamped into [0, N − 1]: it depends neither on the column c nor on the width C;
    * the scatter-add at (n, c) is the operand's entry plus the sum over the edges e whose scatter index, read as a
      signed integer, IS n, of the update's entry (e, c); an edge whose index is negative or ≥ N is equal to no n and
      contributes nowhere. Again the condition depends neither on c nor on C.
  Hence a linear map of the rows (y ↦ y · Wᵀ) may be applied before the gather or after the scatter-add, as long as
  every entry involved is a REAL number: the two sides are the two ways of bracketing
      Σ_{e : tgt e = n} Σ_k x(row e, k) · w(e) · W(o, k),
  equal by distributivity over the reals. Over arbitrary extended reals distributivity fails (∞ − ∞), so realness
  of the entries is a hypothesis.
-/
import Idealize.ShloMosaic.Lib.ValueIdx
import Idealize.ShloMosaic.PureOps.Ideal.Laws

noncomputable section

open scoped BigOperators

namespace Idealize.ShloMosaic.SegmentRows

open Idealize.ShloMosaic Idealize.ShloMosaic.ValueIdx

/-- Of the two axes of a matrix, the one that is not axis 0 is axis 1. -/
theorem kept_zero {N C : Nat} : (⟨2, ![N, C]⟩ : Shape).kept [0] = [1] := rfl
/-- The same with an empty list of further axes appended. -/
theorem kept_zero_nil {N C : Nat} : (⟨2, ![N, C]⟩ : Shape).kept ([0] ++ []) = [1] := rfl

/-! ## The row gather read at an entry -/

section Gather
variable {α : Type}

/-- The dimension numbers of "take rows": operand [N, C], start indices [E, 1], result [E, C]. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row edge e reads: its start index as a signed integer, clamped into [0, N − 1]. -/
def rowOf {N E w : Nat} (hN : 0 < N) (idx : IVec ⟨2, ![E, 1]⟩ w) (e : Fin E) : Fin N :=
  ⟨min (idx (ix2 e 0)).toInt.toNat (N - 1), by omega⟩

variable {N E C w : Nat} (wf : GatherDims.WF ⟨2, ![N, C]⟩ ⟨2, ![E, 1]⟩ ⟨2, ![E, C]⟩ [1] [0] [] [0] [] 1 ![1, C])
  (idx : IVec ⟨2, ![E, 1]⟩ w) (e : Fin E) (c : Fin C)

/-- On the row axis the operand index is the clamped start index … -/
theorem operandIdx_row :
    ((rowGatherDims N E C wf).operandIdx (ix2 e c) idx 0).val = min (idx (ix2 e 0)).toInt.toNat (N - 1) := by
  show (rowGatherDims N E C wf).start (ix2 e c) idx 0 + (rowGatherDims N E C wf).batchCoord (ix2 e c) 0
      + (rowGatherDims N E C wf).offCoord (ix2 e c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N E C wf).startIndexMap from List.mem_singleton.mpr rfl)]
  have hsi : (rowGatherDims N E C wf).siIdx (ix2 e c) ⟨List.idxOf (0 : Fin 2) (rowGatherDims N E C wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- … and on the column axis it is the result's column. -/
theorem operandIdx_col :
    ((rowGatherDims N E C wf).operandIdx (ix2 e c) idx 1).val = c.val := by
  show (rowGatherDims N E C wf).start (ix2 e c) idx 1 + (rowGatherDims N E C wf).batchCoord (ix2 e c) 1
      + (rowGatherDims N E C wf).offCoord (ix2 e c) 1 = _
  rw [GatherDims.batchCoord_eq_zero _ _ _ List.not_mem_nil]
  unfold GatherDims.start
  rw [dif_neg (by decide : ¬ (1 : Fin 2) ∈ ([0] : List (Fin 2)))]
  unfold GatherDims.offCoord
  rw [dif_pos (by rw [GatherDims.sKept, kept_zero_nil]; exact List.mem_singleton.mpr rfl)]
  simp only [Nat.zero_add]
  rfl

/-- THE ROW GATHER AT (e, c): the operand at (row e, c). -/
theorem gather_rows_apply (hN : 0 < N) (x : (⟨2, ![N, C]⟩ : Shape).Idx → α) :
    Host.gather (rowGatherDims N E C wf) x idx (ix2 e c) = x (ix2 (rowOf hN idx e) c) := by
  unfold Host.gather
  congr 1
  funext a
  refine Fin.ext ?_
  match a with
  | ⟨0, _⟩ => exact operandIdx_row wf idx e c
  | ⟨1, _⟩ => exact operandIdx_col wf idx e c

end Gather

/-! ## The row scatter-add read at an entry -/

section Scatter

/-- The dimension numbers of "add rows into rows": operand [N, C], scatter indices [E, 1], updates [E, C]. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w) (e : Fin E) (c : Fin C)

/-- The window of update (e, c) starts, on the row axis, at edge e's scatter index read signed … -/
theorem start_row : (rowScatterDims N E C wf).start (ix2 e c) idx 0 = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e c)
      ⟨List.idxOf (0 : Fin 2) (rowScatterDims N E C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- … and at 0 on the column axis; -/
theorem start_col : (rowScatterDims N E C wf).start (ix2 e c) idx 1 = 0 := by
  unfold ScatterDims.start
  rw [dif_neg (by decide : ¬ (1 : Fin 2) ∈ ([0] : List (Fin 2)))]

/-- its window coordinate is 0 on the row axis (an inserted axis) … -/
theorem window_row : (rowScatterDims N E C wf).window (ix2 e c) 0 = 0 := by
  unfold ScatterDims.window
  rw [dif_neg (by rw [ScatterDims.sKept, kept_zero]; exact fun h => absurd (List.mem_singleton.mp h) (by decide : (0 : Fin 2) ≠ 1))]

/-- … and the update's column on the column axis. -/
theorem window_col : (rowScatterDims N E C wf).window (ix2 e c) 1 = c.val := by
  unfold ScatterDims.window
  rw [dif_pos (by rw [ScatterDims.sKept, kept_zero]; exact List.mem_singleton.mpr rfl)]
  rfl

/-- WHERE UPDATE (e, c) LANDS: at (n, c') exactly when edge e's scatter index, read signed, is n, and c' = c. An index
    that is negative or at least N is no n: that update is dropped. -/
theorem resultIdx?_eq_some_iff (n : Fin N) (c' : Fin C) :
    (rowScatterDims N E C wf).resultIdx? (ix2 e c) idx = some (ix2 n c')
      ↔ (idx (ix2 e 0)).toInt = (n.val : Int) ∧ c = c' := by
  unfold ScatterDims.resultIdx?
  constructor
  · intro h
    split at h
    · rename_i hr
      have hf := Option.some.inj h
      have h0 := congrArg (fun f => (f 0).val) hf
      have h1 := congrArg (fun f => (f 1).val) hf
      simp only [start_row, start_col, window_row, window_col] at h0 h1
      have hr0 := hr 0
      rw [start_row, window_row] at hr0
      refine ⟨?_, Fin.ext ?_⟩
      · have : ((ix2 n c' : (⟨2, ![N, C]⟩ : Shape).Idx) 0).val = n.val := rfl
        omega
      · have : ((ix2 n c' : (⟨2, ![N, C]⟩ : Shape).Idx) 1).val = c'.val := rfl
        omega
    · exact absurd h (by simp)
  · rintro ⟨ht, rfl⟩
    have hr : ∀ a, 0 ≤ (rowScatterDims N E C wf).start (ix2 e c) idx a + (rowScatterDims N E C wf).window (ix2 e c) a
        ∧ (rowScatterDims N E C wf).start (ix2 e c) idx a + (rowScatterDims N E C wf).window (ix2 e c) a
          < (⟨2, ![N, C]⟩ : Shape).size a := by
      intro a
      match a with
      | ⟨0, _⟩ =>
        show 0 ≤ (rowScatterDims N E C wf).start (ix2 e c) idx 0 + (rowScatterDims N E C wf).window (ix2 e c) 0
          ∧ (rowScatterDims N E C wf).start (ix2 e c) idx 0 + (rowScatterDims N E C wf).window (ix2 e c) 0 < (N : Int)
        rw [start_row, window_row, ht]
        have := n.isLt
        omega
      | ⟨1, _⟩ =>
        show 0 ≤ (rowScatterDims N E C wf).start (ix2 e c) idx 1 + (rowScatterDims N E C wf).window (ix2 e c) 1
          ∧ (rowScatterDims N E C wf).start (ix2 e c) idx 1 + (rowScatterDims N E C wf).window (ix2 e c) 1 < (C : Int)
        rw [start_col, window_col]
        have := c.isLt
        omega
    rw [dif_pos hr]
    congr 1
    funext a
    refine Fin.ext ?_
    match a with
    | ⟨0, _⟩ =>
      show ((rowScatterDims N E C wf).start (ix2 e c) idx 0 + (rowScatterDims N E C wf).window (ix2 e c) 0).toNat = n.val
      rw [start_row, window_row, ht]; simp
    | ⟨1, _⟩ =>
      show ((rowScatterDims N E C wf).start (ix2 e c) idx 1 + (rowScatterDims N E C wf).window (ix2 e c) 1).toNat = c.val
      rw [start_col, window_col]; simp

/-- THE ROW SCATTER-ADD AT (n, c): the operand's entry plus the update's entries (e, c) over the edges e whose scatter
    index is n. -/
theorem hostScatterAdd_rows_apply (x : (⟨2, ![N, C]⟩ : Shape).Idx → EReal) (upd : (⟨2, ![E, C]⟩ : Shape).Idx → EReal)
    (n : Fin N) :
    Ideal.hostScatterAdd (rowScatterDims N E C wf) x idx upd (ix2 n c)
      = x (ix2 n c) + ∑ e : Fin E, if (idx (ix2 e 0)).toInt = (n.val : Int) then upd (ix2 e c) else 0 := by
  unfold Ideal.hostScatterAdd
  congr 1
  rw [Finset.sum_filter, sum_idx2]
  refine Finset.sum_congr rfl fun e _ => ?_
  simp only [resultIdx?_eq_some_iff]
  by_cases ht : (idx (ix2 e 0)).toInt = (n.val : Int)
  · simp only [ht, true_and, if_true]
    rw [Finset.sum_ite_eq' Finset.univ c (fun c'' => upd (ix2 e c''))]
    simp
  · simp [ht]

end Scatter

/-! ## A linear map commutes with a weighted segment sum, over real entries -/

section Algebra

open Finset

/-- The coercion of the reals into the extended reals commutes with finite sums. -/
theorem coe_finset_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The coercion commutes with a choice between a real and zero. -/
theorem ite_coe (P : Prop) [Decidable P] (r : ℝ) :
    (if P then ((r : ℝ) : EReal) else 0) = (((if P then r else 0) : ℝ) : EReal) := by
  split <;> simp

/-- Over the reals: contracting the segment sum of the weighted rows a(e, ·) · v(e) with W equals the segment sum of the
    weighted contractions (Σ_k a(e, k) · W(k)) · v(e): each side is Σ_{e : P e} Σ_k a(e, k) · v(e) · W(k). -/
theorem segment_commute_real {ι κ : Type*} [Fintype ι] [Fintype κ] (P : ι → Prop) [DecidablePred P]
    (a : ι → κ → ℝ) (v : ι → ℝ) (W : κ → ℝ) :
    ∑ k, (∑ e, if P e then a e k * v e else 0) * W k = ∑ e, if P e then (∑ k, a e k * W k) * v e else 0 := by
  have hl : ∀ k, (∑ e, if P e then a e k * v e else 0) * W k = ∑ e, if P e then a e k * W k * v e else 0 := by
    intro k
    rw [Finset.sum_mul]
    refine Finset.sum_congr rfl fun e _ => ?_
    split
    · ring
    · simp
  rw [Finset.sum_congr rfl fun k _ => hl k, Finset.sum_comm]
  refine Finset.sum_congr rfl fun e _ => ?_
  split
  · rw [Finset.sum_mul]
  · simp

/-- The same over the extended reals, for families whose entries are all real numbers; the segment sums start from
    the zero a scatter-add's zero operand contributes. -/
theorem segment_commute_ereal {ι κ : Type*} [Fintype ι] [Fintype κ] (P : ι → Prop) [DecidablePred P]
    (a : ι → κ → EReal) (v : ι → EReal) (W : κ → EReal)
    (ha : ∀ e k, ∃ r : ℝ, a e k = (r : EReal)) (hv : ∀ e, ∃ r : ℝ, v e = (r : EReal))
    (hW : ∀ k, ∃ r : ℝ, W k = (r : EReal)) :
    ∑ k, (0 + ∑ e, if P e then a e k * v e else 0) * W k
      = 0 + ∑ e, if P e then (∑ k, a e k * W k) * v e else 0 := by
  choose A hA using ha
  choose V hV using hv
  choose W' hW' using hW
  have ea : a = fun e k => ((A e k : ℝ) : EReal) := funext fun e => funext fun k => hA e k
  have ev : v = fun e => ((V e : ℝ) : EReal) := funext fun e => hV e
  have ew : W = fun k => ((W' k : ℝ) : EReal) := funext fun k => hW' k
  subst ea ev ew
  simp only [zero_add, ← EReal.coe_mul, ite_coe, ← coe_finset_sum]
  exact congrArg _ (segment_commute_real P A V W')

end Algebra

end Idealize.ShloMosaic.SegmentRows

end
-- ==== Proof.HostScales.lean ====
/-
  The step arrays the kernel's scale windows read, as the host prepares them before the launch.

  The host turns each [1, 4, 1, 4, 1, 1, 1] table of steps into arrays laid out for the kernel's blocks:
    * for every head h it takes row  h div 4  of the table flattened to [4, 4] (a gather of rows through the integer
      vector  iota(16) floor-divided by 4, wrapped if negative), giving a [16, 4] table of steps per head;
    * A's steps: each of the four entries of a head repeated over its 512 rows ([16, 4] -> [16, 4, 512] -> [16, 2048]),
      copied to both batches and stood up as a column: [2, 16, 2048, 1];
    * B's steps: each entry repeated over its 32 depths ([16, 4] -> [16, 4, 32] -> [16, 128]), copied to both batches,
      once as rows [2, 16, 1, 128] and once as columns [2, 16, 128, 1].
  Read at an index: A's step array at (b, h, r, 0) is entry (h div 4, r div 512) of A's table; both of B's step arrays
  at (b, h, ·, k) / (b, h, k, ·) are entry (h div 4, k div 32) of B's table. The integer vector is a closed term, so
  that head h reads row h div 4 is decided by evaluation over the sixteen heads.
-/
import proofs.«111576_j68839735820689_2_alg».proof.Proof.Gen.KernelIdeal.Frame
import proofs.«111576_j68839735820689_2_alg».proof.Proof.QuantSpec
import proofs.«111576_j68839735820689_2_alg».proof.Proof.LibSegmentRows
import Idealize.ShloMosaic.Lib.Pipeline.Value
import Idealize.ShloMosaic.Lib.StableHlo.Run

set_option maxRecDepth 16384

noncomputable section

namespace Cert.KernelIdeal.Scales

open Cert.KernelIdeal Cert.KernelIdeal.Gen Idealize.ShloMosaic Idealize.ShloMosaic.TcCoe Idealize.SL.Sem
open Idealize.ShloMosaic.StableHlo Idealize.ShloMosaic.ValueIdx Cert.QuantMatmul

/-! ## The head's group, as the host computes it -/

/-- iota(16) floor-divided by 4: the truncated quotient, less one where the signs differ and the remainder is not 0. -/
def quot : IVec S16 32 :=
  select
    (andi (cmpi .ne (signi (iotaInDim S16 32 0)) (broadcastInDim S16 ![] bcast_S_S16 (signi (id (constantI S_ 32 4#32)))))
      (cmpi .ne (Host.remsi (iotaInDim S16 32 0) (broadcastInDim S16 ![] bcast_S_S16 (id (constantI S_ 32 4#32))))
        (broadcastInDim S16 ![] bcast_S_S16 (constantI S_ 32 0#32))))
    (subi (Host.divsi (iotaInDim S16 32 0) (broadcastInDim S16 ![] bcast_S_S16 (id (constantI S_ 32 4#32))))
      (broadcastInDim S16 ![] bcast_S_S16 (constantI S_ 32 1#32)))
    (Host.divsi (iotaInDim S16 32 0) (broadcastInDim S16 ![] bcast_S_S16 (id (constantI S_ 32 4#32))))

/-- The start indices of the row gather: the quotient, plus 4 where negative, as a column [16, 1]. -/
def headIdx : IVec S16x1 32 :=
  broadcastInDim S16x1 ![0] bcast_S16_S16x1_0
    (select (cmpi .slt quot (broadcastInDim S16 ![] bcast_S_S16 (constantI S_ 32 0#32)))
      (addi quot (broadcastInDim S16 ![] bcast_S_S16 (constantI S_ 32 4#32))) quot)

/-- Head h reads row h div 4 (evaluated over the sixteen heads). -/
theorem head_row : ∀ h : Fin 16, SegmentRows.rowOf (N := 4) (by decide) headIdx h = grp h := by decide +kernel

/-! ## The steps per head -/

/-- The [16, 4] table of steps per head: rows of the table flattened to [4, 4], gathered by head. -/
def perHead (I : FVec Ideal S1x4x1x4x1x1x1 .f32) : FVec Ideal S16x4 .f32 :=
  Host.gather gather_S4x4_S16x1_S16x4_1_0_n_n_0_1_14 (shapeCast S4x4 I shapeCasts_S1x4x1x4x1x1x1_S4x4) headIdx

/-- Entry (h, v) of it is entry (h div 4, v) of the table. -/
theorem perHead_apply (I : FVec Ideal S1x4x1x4x1x1x1 .f32) (h : Fin 16) (v : Fin 4) :
    perHead I (ix2 h v) = stepAt I (grp h) v := by
  unfold perHead
  refine (SegmentRows.gather_rows_apply (N := 4) (E := 16) (C := 4) gather_S4x4_S16x1_S16x4_1_0_n_n_0_1_14_wf headIdx h v
    (by decide) (shapeCast S4x4 I shapeCasts_S1x4x1x4x1x1x1_S4x4)).trans ?_
  rw [head_row]
  exact shapeCast_apply I shapeCasts_S1x4x1x4x1x1x1_S4x4 (ix2 (grp h) v) (ix7 0 (grp h) 0 v 0 0 0) (by
    rw [rowMajor_val_seven, Shape.rowMajor_val_two]
    show (((((0 * 4 + (grp h).val) * 1 + 0) * 4 + v.val) * 1 + 0) * 1 + 0) * 1 + 0 = (grp h).val * 4 + v.val
    omega)

/-! ## A's steps per row and B's steps per depth -/

/-- A's steps as [2, 16, 2048]: per head, each of the four entries over its 512 rows, for both batches. -/
def rowSteps (I : FVec Ideal S1x4x1x4x1x1x1 .f32) : FVec Ideal S2x16x2048 .f32 :=
  broadcastInDim S2x16x2048 ![0, 1, 2] bcast_S1x16x2048_S2x16x2048_0_1_2
    (broadcastInDim S1x16x2048 ![1, 2] bcast_S16x2048_S1x16x2048_1_2
      (shapeCast S16x2048 (broadcastInDim S16x4x512 ![0, 1] bcast_S16x4_S16x4x512_0_1 (perHead I)) shapeCasts_S16x4x512_S16x2048))

/-- B's steps as [2, 16, 128]: per head, each of the four entries over its 32 depths, for both batches. -/
def depthSteps (I : FVec Ideal S1x4x1x4x1x1x1 .f32) : FVec Ideal S2x16x128 .f32 :=
  broadcastInDim S2x16x128 ![0, 1, 2] bcast_S1x16x128_S2x16x128_0_1_2
    (broadcastInDim S1x16x128 ![1, 2] bcast_S16x128_S1x16x128_1_2
      (shapeCast S16x128 (broadcastInDim S16x4x32 ![0, 1] bcast_S16x4_S16x4x32_0_1 (perHead I)) shapeCasts_S16x4x32_S16x128))

theorem rowSteps_apply (I : FVec Ideal S1x4x1x4x1x1x1 .f32) (b : Fin 2) (h : Fin 16) (r : Fin 2048) :
    rowSteps I (ix3 b h r) = stepAt I (grp h) (rowBlk r) := by
  unfold rowSteps
  refine (broadcastInDim_apply _ bcast_S1x16x2048_S2x16x2048_0_1_2 _ (ix3 b h r) (ix3 0 h r) (fun a => match a with
    | ⟨0, _⟩ => by show 0 = if (1 : Nat) = 1 then 0 else b.val; rw [if_pos rfl]
    | ⟨1, _⟩ => by show h.val = if (16 : Nat) = 1 then 0 else h.val; rw [if_neg (by decide)]
    | ⟨2, _⟩ => by show r.val = if (2048 : Nat) = 1 then 0 else r.val; rw [if_neg (by decide)])).trans ?_
  refine (broadcastInDim_apply _ bcast_S16x2048_S1x16x2048_1_2 _ (ix3 0 h r) (ix2 h r) (fun a => match a with
    | ⟨0, _⟩ => by show h.val = if (16 : Nat) = 1 then 0 else h.val; rw [if_neg (by decide)]
    | ⟨1, _⟩ => by show r.val = if (2048 : Nat) = 1 then 0 else r.val; rw [if_neg (by decide)])).trans ?_
  have hr : r.val < 2048 := r.isLt
  refine (shapeCast_apply _ shapeCasts_S16x4x512_S16x2048 (ix2 h r) (ix3 h (rowBlk r) ⟨r.val % 512, by omega⟩) (by
    rw [Shape.rowMajor_val_three, Shape.rowMajor_val_two]
    show (h.val * 4 + r.val / 512) * 512 + r.val % 512 = h.val * 2048 + r.val
    omega)).trans ?_
  refine (broadcastInDim_apply _ bcast_S16x4_S16x4x512_0_1 _ (ix3 h (rowBlk r) ⟨r.val % 512, by omega⟩) (ix2 h (rowBlk r)) (fun a => match a with
    | ⟨0, _⟩ => by show h.val = if (16 : Nat) = 1 then 0 else h.val; rw [if_neg (by decide)]
    | ⟨1, _⟩ => by show (rowBlk r).val = if (4 : Nat) = 1 then 0 else (rowBlk r).val; rw [if_neg (by decide)])).trans ?_
  exact perHead_apply I h (rowBlk r)

theorem depthSteps_apply (I : FVec Ideal S1x4x1x4x1x1x1 .f32) (b : Fin 2) (h : Fin 16) (k : Fin 128) :
    depthSteps I (ix3 b h k) = stepAt I (grp h) (depthBlk k) := by
  unfold depthSteps
  refine (broadcastInDim_apply _ bcast_S1x16x128_S2x16x128_0_1_2 _ (ix3 b h k) (ix3 0 h k) (fun a => match a with
    | ⟨0, _⟩ => by show 0 = if (1 : Nat) = 1 then 0 else b.val; rw [if_pos rfl]
    | ⟨1, _⟩ => by show h.val = if (16 : Nat) = 1 then 0 else h.val; rw [if_neg (by decide)]
    | ⟨2, _⟩ => by show k.val = if (128 : Nat) = 1 then 0 else k.val; rw [if_neg (by decide)])).trans ?_
  refine (broadcastInDim_apply _ bcast_S16x128_S1x16x128_1_2 _ (ix3 0 h k) (ix2 h k) (fun a => match a with
    | ⟨0, _⟩ => by show h.val = if (16 : Nat) = 1 then 0 else h.val; rw [if_neg (by decide)]
    | ⟨1, _⟩ => by show k.val = if (128 : Nat) = 1 then 0 else k.val; rw [if_neg (by decide)])).trans ?_
  have hk : k.val < 128 := k.isLt
  refine (shapeCast_apply _ shapeCasts_S16x4x32_S16x128 (ix2 h k) (ix3 h (depthBlk k) ⟨k.val % 32, by omega⟩) (by
    rw [Shape.rowMajor_val_three, Shape.rowMajor_val_two]
    show (h.val * 4 + k.val / 32) * 32 + k.val % 32 = h.val * 128 + k.val
    omega)).trans ?_
  refine (broadcastInDim_apply _ bcast_S16x4_S16x4x32_0_1 _ (ix3 h (depthBlk k) ⟨k.val % 32, by omega⟩) (ix2 h (depthBlk k)) (fun a => match a with
    | ⟨0, _⟩ => by show h.val = if (16 : Nat) = 1 then 0 else h.val; rw [if_neg (by decide)]
    | ⟨1, _⟩ => by show (depthBlk k).val = if (4 : Nat) = 1 then 0 else (depthBlk k).val; rw [if_neg (by decide)])).trans ?_
  exact perHead_apply I h (depthBlk k)

/-! ## The three step arrays as the launch finds them -/

variable (m : (ℓ : Loc nD τ sig) → Buf (Elt Ideal) ℓ)

set_option maxHeartbeats 4000000 in
/-- A's step array [2, 16, 2048, 1] is A's steps per row stood up as a column. -/
theorem V_rowScale (c : Dev nD) : (V m c main_v15 : S2x16x2048x1.Idx → Ideal .f32)
    = shapeCast S2x16x2048x1 (rowSteps (m ((c : Thread nD τ).loc main_arg2))) shapeCasts_S2x16x2048_S2x16x2048x1 := by
  dsimp only [V]
  simp only [hostOps0, hostOps0_1, hostOps0_2, List.flatten_cons, List.flatten_nil, List.append_nil, List.cons_append,
    List.nil_append]
  after_results_simp
  rfl

set_option maxHeartbeats 4000000 in
/-- B's step array [2, 16, 1, 128] is B's steps per depth laid along the lanes. -/
theorem V_depthScaleRow (c : Dev nD) : (V m c main_v27 : S2x16x1x128.Idx → Ideal .f32)
    = shapeCast S2x16x1x128 (depthSteps (m ((c : Thread nD τ).loc main_arg3))) shapeCasts_S2x16x128_S2x16x1x128 := by
  dsimp only [V]
  simp only [hostOps0, hostOps0_1, hostOps0_2, List.flatten_cons, List.flatten_nil, List.append_nil, List.cons_append,
    List.nil_append]
  after_results_simp
  rfl

set_option maxHeartbeats 4000000 in
/-- B's step array [2, 16, 128, 1] is B's steps per depth stood up as a column. -/
theorem V_depthScaleCol (c : Dev nD) : (V m c main_v30 : S2x16x128x1.Idx → Ideal .f32)
    = shapeCast S2x16x128x1 (depthSteps (m ((c : Thread nD τ).loc main_arg3))) shapeCasts_S2x16x128_S2x16x128x1 := by
  dsimp only [V]
  simp only [hostOps0, hostOps0_1, hostOps0_2, List.flatten_cons, List.flatten_nil, List.append_nil, List.cons_append,
    List.nil_append]
  after_results_simp
  rfl

/-- A's step array at (b, h, r, 0). -/
theorem rowScale_apply (c : Dev nD) (b : Fin 2) (h : Fin 16) (r : Fin 2048) :
    (V m c main_v15 : S2x16x2048x1.Idx → Ideal .f32) (ix4 b h r 0)
      = stepAt (m ((c : Thread nD τ).loc main_arg2)) (grp h) (rowBlk r) := by
  refine (congrFun (V_rowScale m c) (ix4 b h r 0)).trans ?_
  refine (shapeCast_apply _ shapeCasts_S2x16x2048_S2x16x2048x1 (ix4 b h r 0) (ix3 b h r) (by
    rw [Shape.rowMajor_val_three, Shape.rowMajor_val_four]
    show (b.val * 16 + h.val) * 2048 + r.val = ((b.val * 16 + h.val) * 2048 + r.val) * 1 + 0
    omega)).trans ?_
  exact rowSteps_apply _ b h r

/-- B's row-laid step array at (b, h, 0, k). -/
theorem depthScaleRow_apply (c : Dev nD) (b : Fin 2) (h : Fin 16) (k : Fin 128) :
    (V m c main_v27 : S2x16x1x128.Idx → Ideal .f32) (ix4 b h 0 k)
      = stepAt (m ((c : Thread nD τ).loc main_arg3)) (grp h) (depthBlk k) := by
  refine (congrFun (V_depthScaleRow m c) (ix4 b h 0 k)).trans ?_
  refine (shapeCast_apply _ shapeCasts_S2x16x128_S2x16x1x128 (ix4 b h 0 k) (ix3 b h k) (by
    rw [Shape.rowMajor_val_three, Shape.rowMajor_val_four]
    show (b.val * 16 + h.val) * 128 + k.val = ((b.val * 16 + h.val) * 1 + 0) * 128 + k.val
    omega)).trans ?_
  exact depthSteps_apply _ b h k

/-- B's column-laid step array at (b, h, k, 0). -/
theorem depthScaleCol_apply (c : Dev nD) (b : Fin 2) (h : Fin 16) (k : Fin 128) :
    (V m c main_v30 : S2x16x128x1.Idx → Ideal .f32) (ix4 b h k 0)
      = stepAt (m ((c : Thread nD τ).loc main_arg3)) (grp h) (depthBlk k) := by
  refine (congrFun (V_depthScaleCol m c) (ix4 b h k 0)).trans ?_
  refine (shapeCast_apply _ shapeCasts_S2x16x128_S2x16x128x1 (ix4 b h k 0) (ix3 b h k) (by
    rw [Shape.rowMajor_val_three, Shape.rowMajor_val_four]
    show (b.val * 16 + h.val) * 128 + k.val = ((b.val * 16 + h.val) * 128 + k.val) * 1 + 0
    omega)).trans ?_
  exact depthSteps_apply _ b h k

end Cert.KernelIdeal.Scales

end
-- ==== Proof.LibPlainMatmul.lean ====
/-
  A plain matrix product read at an index, over the extended reals.

  For the dimension numbers of an ordinary product of an `R × n` matrix by an `n × k` matrix (the left operand
  contracted on its second axis, the right one on its first, no batch axis), a product accumulated into the zero
  matrix is, at row `q` and column `o`, the sum over `c : Fin n` of `A (q, c) * B (c, o)`: the zero accumulator
  contributes `0 + _`, and the contraction index, a one-axis multi-index, is re-indexed by its one coordinate.
  The statement quantifies over the well-formedness proof only, so it applies to any record with these six lists.
-/
import Idealize.ShloMosaic.PureOps.Ideal
import Idealize.ShloMosaic.PureOps.Ideal.Laws
import Idealize.ShloMosaic.Lib.ValueIdx

noncomputable section

namespace Cert.PointConv

open Idealize.ShloMosaic Idealize.ShloMosaic.ValueIdx

/-- The dimension numbers of an ordinary `R × n` by `n × k` product, for any proof that they are well formed. -/
abbrev plainDims (R n k : Nat)
    (wf : DotDims.WF (⟨2, ![R, n]⟩ : Shape) ⟨2, ![n, k]⟩ ⟨2, ![R, k]⟩ [1] [0] [0] [1] [] []) :
    DotDims (⟨2, ![R, n]⟩ : Shape) ⟨2, ![n, k]⟩ ⟨2, ![R, k]⟩ :=
  { lhsContracting := [1], rhsContracting := [0], lhsNonContracting := [0], rhsNonContracting := [1],
    lhsBatch := [], rhsBatch := [], wf := wf }

theorem plainDims_contr_rank {R n k : Nat} (wf) : (plainDims R n k wf).contr.rank = 1 := rfl

theorem plainDims_contr_size {R n k : Nat} (wf) :
    (plainDims R n k wf).contr.size ⟨0, by rw [plainDims_contr_rank]; exact Nat.one_pos⟩ = n := rfl

/-- The contraction index of such a product is one coordinate in `Fin n`. -/
abbrev plainContr {R n k : Nat} (wf) : (plainDims R n k wf).contr.Idx ≃ Fin n :=
  contrEquiv1 (plainDims R n k wf) n (plainDims_contr_rank wf) (plainDims_contr_size wf)

/-- The left operand's index at output `(q, o)` and contraction coordinate `c` is `(q, c)`. -/
theorem plainDims_lhsIdx {R n k : Nat} (wf) (q : Fin R) (o : Fin k) (c : Fin n) :
    (plainDims R n k wf).lhsIdx (ix2 q o) ((plainContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (plainDims R n k wf).lhsBatch from List.not_mem_nil),
      dif_pos (show (⟨0, h0⟩ : Fin (⟨2, ![R, n]⟩ : Shape).rank) ∈ (plainDims R n k wf).lhsNonContracting from
        List.mem_singleton.mpr rfl)]
    rfl
  | ⟨1, h1⟩ =>
    exact ((plainDims R n k wf).lhsIdx_val_of_single (cl := ⟨1, h1⟩) rfl _ _).trans
      (contrEquiv1_symm_val (plainDims R n k wf) n (plainDims_contr_rank wf) (plainDims_contr_size wf) c)

/-- The right operand's index there is `(c, o)`. -/
theorem plainDims_rhsIdx {R n k : Nat} (wf) (q : Fin R) (o : Fin k) (c : Fin n) :
    (plainDims R n k wf).rhsIdx (ix2 q o) ((plainContr wf).symm c) = ix2 c o := by
  funext a
  apply Fin.ext
  match a with
  | ⟨0, h0⟩ =>
    exact ((plainDims R n k wf).rhsIdx_val_of_single (cr := ⟨0, h0⟩) rfl _ _).trans
      (contrEquiv1_symm_val (plainDims R n k wf) n (plainDims_contr_rank wf) (plainDims_contr_size wf) c)
  | ⟨1, h1⟩ =>
    unfold DotDims.rhsIdx
    rw [dif_neg (show ¬(⟨1, h1⟩ : Fin (⟨2, ![n, k]⟩ : Shape).rank) ∈ (plainDims R n k wf).rhsBatch from List.not_mem_nil),
      dif_pos (show (⟨1, h1⟩ : Fin (⟨2, ![n, k]⟩ : Shape).rank) ∈ (plainDims R n k wf).rhsNonContracting from
        List.mem_singleton.mpr rfl)]
    rfl

/-- A product accumulated into the zero matrix, at `(q, o)`: the sum over the shared axis. -/
theorem plainMatmul_zero_apply {R n k : Nat} {φ₁ φ₂ : FTy} (wf) (prec : Option ContractPrecision)
    (A : FVec Ideal (⟨2, ![R, n]⟩ : Shape) φ₁) (B : FVec Ideal (⟨2, ![n, k]⟩ : Shape) φ₂) (q : Fin R) (o : Fin k) :
    FloatOps.matmul (plainDims R n k wf) prec A B (constant (F := Ideal) (⟨2, ![R, k]⟩ : Shape) .f32 0x00000000#32) (ix2 q o)
      = ∑ c : Fin n, A (ix2 q c) * B (ix2 c o) := by
  rw [Ideal.matmul_constant_zero_apply, ← Equiv.sum_comp (plainContr wf).symm]
  refine Finset.sum_congr rfl fun c _ => ?_
  rw [plainDims_lhsIdx, plainDims_rhsIdx]

end Cert.PointConv

end
-- ==== Proof.Payload.lean ====
/-
  One block of the kernel, entry by entry.

  At a grid point the body holds a tile of A ([1, 1, 1024, 128]: 1024 rows of one head), the whole depth-by-column
  slab of B of that head ([1, 1, 128, 2048]), A's steps of those rows as a column ([1, 1, 1024, 1]) and B's steps of
  the head twice, along the lanes ([1, 1, 1, 128]) and as a column ([1, 1, 128, 1]). It forms
      left(p, c)  = (level (A(p, c)) (sA(p)) * sA(p)) * sB(c)      -- A fake-quantised, then scaled by B's step
      right(c, q) = level (B(c, q)) (sB(c))                        -- B's quantisation level alone
  and multiplies the two tiles into a zero accumulator. The narrowing of both tiles to bf16 is the identity on
  extended reals, so entry (p, q) of the block is the sum over the 128 depths c of left(p, c) * right(c, q).
-/
import proofs.«111576_j68839735820689_2_alg».proof.Proof.Gen.KernelIdeal.Skeleton
import proofs.«111576_j68839735820689_2_alg».proof.Proof.QuantSpec
import proofs.«111576_j68839735820689_2_alg».proof.Proof.LibPlainMatmul
import Idealize.ShloMosaic.Lib.Pipeline.Value

noncomputable section

open scoped BigOperators

namespace Cert.KernelIdeal.Block

open Cert.KernelIdeal Cert.KernelIdeal.Gen Idealize.ShloMosaic Idealize.ShloMosaic.ValueIdx Cert.QuantMatmul

/-! ## Layout operations of the body read at an index -/

/-- A block [1, 1, a, b] flattened to [a, b], at (p, q). -/
theorem flat_apply {α : Type} {a b : Nat} (x : (⟨4, ![1, 1, a, b]⟩ : Shape).Idx → α)
    (h : (⟨4, ![1, 1, a, b]⟩ : Shape).ShapeCasts ⟨2, ![a, b]⟩) (p : Fin a) (q : Fin b) :
    shapeCast ⟨2, ![a, b]⟩ x h (ix2 p q) = x (ix4 0 0 p q) :=
  shapeCast_apply x h (ix2 p q) (ix4 0 0 p q) (by
    rw [Shape.rowMajor_val_four, Shape.rowMajor_val_two]
    show ((0 * 1 + 0) * a + p.val) * b + q.val = p.val * b + q.val
    simp)

/-- A's steps, a column [1024, 1], copied along the 128 lanes. -/
theorem rowCol_apply (x : FVec Ideal S1024x1 .f32) (p : Fin 1024) (c : Fin 128) :
    broadcastTo S1024x128 x broadcasts_S1024x1_S1024x128 (ix2 p c) = x (ix2 p 0) :=
  broadcastTo_apply x broadcasts_S1024x1_S1024x128 (ix2 p c) (ix2 p 0) (fun a => match a with
    | ⟨0, _⟩ => by show p.val = if (1024 : Nat) = 1 then 0 else p.val; rw [if_neg (by decide)]
    | ⟨1, _⟩ => by show 0 = if (1 : Nat) = 1 then 0 else c.val; rw [if_pos rfl])

/-- B's steps, a row [1, 128], copied down the 1024 rows. -/
theorem laneRow_apply (x : FVec Ideal S1x128 .f32) (p : Fin 1024) (c : Fin 128) :
    broadcastTo S1024x128 x broadcasts_S1x128_S1024x128 (ix2 p c) = x (ix2 0 c) :=
  broadcastTo_apply x broadcasts_S1x128_S1024x128 (ix2 p c) (ix2 0 c) (fun a => match a with
    | ⟨0, _⟩ => by show 0 = if (1 : Nat) = 1 then 0 else p.val; rw [if_pos rfl]
    | ⟨1, _⟩ => by show c.val = if (128 : Nat) = 1 then 0 else c.val; rw [if_neg (by decide)])

/-- B's steps, a column [128, 1], copied along the 2048 columns. -/
theorem depthCol_apply (x : FVec Ideal S128x1 .f32) (c : Fin 128) (q : Fin 2048) :
    broadcastTo S128x2048 x broadcasts_S128x1_S128x2048 (ix2 c q) = x (ix2 c 0) :=
  broadcastTo_apply x broadcasts_S128x1_S128x2048 (ix2 c q) (ix2 c 0) (fun a => match a with
    | ⟨0, _⟩ => by show c.val = if (128 : Nat) = 1 then 0 else c.val; rw [if_neg (by decide)]
    | ⟨1, _⟩ => by show 0 = if (1 : Nat) = 1 then 0 else q.val; rw [if_pos rfl])

/-! ## The two tiles -/

/-- The left tile: A fake-quantised with its own steps, then scaled by B's steps along the lanes. -/
def leftTile (sA : Vec Ideal S1x1x1024x1 .f32) (sBrow : Vec Ideal S1x1x1x128 .f32) (A : Vec Ideal S1x1x1024x128 .f32) :
    FVec Ideal S1024x128 .bf16 :=
  truncf .bf16
    (mulf
      (mulf
        (minimumf (broadcast S1024x128 (Scalar.ofBits .f32 0x42FE0000#32))
          (maximumf (broadcast S1024x128 (Scalar.ofBits .f32 0xC3000000#32))
            (roundeven (divf (shapeCast S1024x128 A shapeCasts_S1x1x1024x128_S1024x128)
              (broadcastTo S1024x128 (shapeCast S1024x1 sA shapeCasts_S1x1x1024x1_S1024x1) broadcasts_S1024x1_S1024x128)))))
        (broadcastTo S1024x128 (shapeCast S1024x1 sA shapeCasts_S1x1x1024x1_S1024x1) broadcasts_S1024x1_S1024x128))
      (broadcastTo S1024x128 (shapeCast S1x128 sBrow shapeCasts_S1x1x1x128_S1x128) broadcasts_S1x128_S1024x128))
    bitsLt_bf16_f32

/-- The right tile: B's quantisation levels. -/
def rightTile (sBcol : Vec Ideal S1x1x128x1 .f32) (B : Vec Ideal S1x1x128x2048 .f32) : FVec Ideal S128x2048 .bf16 :=
  truncf .bf16
    (minimumf (broadcast S128x2048 (Scalar.ofBits .f32 0x42FE0000#32))
      (maximumf (broadcast S128x2048 (Scalar.ofBits .f32 0xC3000000#32))
        (roundeven (divf (shapeCast S128x2048 B shapeCasts_S1x1x128x2048_S128x2048)
          (broadcastTo S128x2048 (shapeCast S128x1 sBcol shapeCasts_S1x1x128x1_S128x1) broadcasts_S128x1_S128x2048)))))
    bitsLt_bf16_f32

theorem leftTile_apply (sA : Vec Ideal S1x1x1024x1 .f32) (sBrow : Vec Ideal S1x1x1x128 .f32) (A : Vec Ideal S1x1x1024x128 .f32)
    (p : Fin 1024) (c : Fin 128) :
    leftTile sA sBrow A (ix2 p c) = fake (A (ix4 0 0 p c)) (sA (ix4 0 0 p 0)) * sBrow (ix4 0 0 0 c) := by
  have eA : shapeCast S1024x128 A shapeCasts_S1x1x1024x128_S1024x128 (ix2 p c) = A (ix4 0 0 p c) := flat_apply A _ p c
  have es : broadcastTo S1024x128 (shapeCast S1024x1 sA shapeCasts_S1x1x1024x1_S1024x1) broadcasts_S1024x1_S1024x128 (ix2 p c)
      = sA (ix4 0 0 p 0) := (rowCol_apply _ p c).trans (flat_apply sA _ p 0)
  have eb : broadcastTo S1024x128 (shapeCast S1x128 sBrow shapeCasts_S1x1x1x128_S1x128) broadcasts_S1x128_S1024x128 (ix2 p c)
      = sBrow (ix4 0 0 0 c) := (laneRow_apply _ p c).trans (flat_apply sBrow _ 0 c)
  show (min (Ideal.ofBits .f32 0x42FE0000#32) (max (Ideal.ofBits .f32 0xC3000000#32)
      (Ideal.liftRound Ideal.roundHalfEven (Ideal.div
        (shapeCast S1024x128 A shapeCasts_S1x1x1024x128_S1024x128 (ix2 p c))
        (broadcastTo S1024x128 (shapeCast S1024x1 sA shapeCasts_S1x1x1024x1_S1024x1) broadcasts_S1024x1_S1024x128 (ix2 p c)))))
      * broadcastTo S1024x128 (shapeCast S1024x1 sA shapeCasts_S1x1x1024x1_S1024x1) broadcasts_S1024x1_S1024x128 (ix2 p c))
      * broadcastTo S1024x128 (shapeCast S1x128 sBrow shapeCasts_S1x1x1x128_S1x128) broadcasts_S1x128_S1024x128 (ix2 p c) = _
  rw [eA, es, eb]
  rfl

theorem rightTile_apply (sBcol : Vec Ideal S1x1x128x1 .f32) (B : Vec Ideal S1x1x128x2048 .f32) (c : Fin 128) (q : Fin 2048) :
    rightTile sBcol B (ix2 c q) = level (B (ix4 0 0 c q)) (sBcol (ix4 0 0 c 0)) := by
  have eB : shapeCast S128x2048 B shapeCasts_S1x1x128x2048_S128x2048 (ix2 c q) = B (ix4 0 0 c q) := flat_apply B _ c q
  have es : broadcastTo S128x2048 (shapeCast S128x1 sBcol shapeCasts_S1x1x128x1_S128x1) broadcasts_S128x1_S128x2048 (ix2 c q)
      = sBcol (ix4 0 0 c 0) := (depthCol_apply _ c q).trans (flat_apply sBcol _ c 0)
  show min (Ideal.ofBits .f32 0x42FE0000#32) (max (Ideal.ofBits .f32 0xC3000000#32)
      (Ideal.liftRound Ideal.roundHalfEven (Ideal.div
        (shapeCast S128x2048 B shapeCasts_S1x1x128x2048_S128x2048 (ix2 c q))
        (broadcastTo S128x2048 (shapeCast S128x1 sBcol shapeCasts_S1x1x128x1_S128x1) broadcasts_S128x1_S128x2048 (ix2 c q))))) = _
  rw [eB, es]
  rfl

/-! ## The block -/

/-- The body's result is the product of the two tiles into the zero accumulator. -/
theorem block_eq (sA : Vec Ideal S1x1x1024x1 .f32) (sBrow : Vec Ideal S1x1x1x128 .f32) (sBcol : Vec Ideal S1x1x128x1 .f32)
    (A : Vec Ideal S1x1x1024x128 .f32) (B : Vec Ideal S1x1x128x2048 .f32) :
    k0_pay2 sA sBrow sBcol A B
      = matmul dot_S1024x128_S128x2048_S1024x2048_1_0_0_1_n_n none (leftTile sA sBrow A) (rightTile sBcol B)
          (constant S1024x2048 .f32 0x00000000#32) := rfl

/-- Entry (p, q) of the block. -/
theorem block_apply (sA : Vec Ideal S1x1x1024x1 .f32) (sBrow : Vec Ideal S1x1x1x128 .f32) (sBcol : Vec Ideal S1x1x128x1 .f32)
    (A : Vec Ideal S1x1x1024x128 .f32) (B : Vec Ideal S1x1x128x2048 .f32) (p : Fin 1024) (q : Fin 2048) :
    k0_pay2 sA sBrow sBcol A B (ix2 p q)
      = ∑ c : Fin 128, (fake (A (ix4 0 0 p c)) (sA (ix4 0 0 p 0)) * sBrow (ix4 0 0 0 c))
          * level (B (ix4 0 0 c q)) (sBcol (ix4 0 0 c 0)) := by
  rw [block_eq]
  refine (Cert.PointConv.plainMatmul_zero_apply (R := 1024) (n := 128) (k := 2048)
    dot_S1024x128_S128x2048_S1024x2048_1_0_0_1_n_n_wf none (leftTile sA sBrow A) (rightTile sBcol B) p q).trans ?_
  refine Finset.sum_congr rfl fun c _ => ?_
  rw [leftTile_apply, rightTile_apply]

end Cert.KernelIdeal.Block

end
-- ==== Proof.Blocks.lean ====
/-
  From the blocks to the whole array: after the kernel's run its output array is the product of the fake-quantised
  operands.

  The grid is (batch, head, row tile): 2 x 16 x 2 = 64 points. At point t with coordinates (b, h, mt) the output's block
  is rows mt*1024 … mt*1024+1023 of the [2048, 2048] slab of batch b and head h; A's tile and A's step column are the
  same rows of that slab, B's slab and B's two step arrays are those of (b, h) whole. So entry (p, q) of the block is
  entry i = (b, h, mt*1024 + p, q) of the array, and what the body computes there is
      sum over k of ((level a * sA) * sB(k)) * level b    with a = A(b, h, i2, k), b = B(b, h, k, q),
  sA the step of (h div 4, i2 div 512), sB(k) the step of (h div 4, k div 32): the product's entry at i, with B's step
  moved across each product. Every index of the array lies in the block of the point (i0, i1, i2 div 1024), so the
  blocks cover the array.
-/
import proofs.«111576_j68839735820689_2_alg».proof.Proof.Gen.KernelIdeal.Value
import proofs.«111576_j68839735820689_2_alg».proof.Proof.HostScales
import proofs.«111576_j68839735820689_2_alg».proof.Proof.Payload

set_option maxRecDepth 16384

noncomputable section

open scoped BigOperators

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.QuantMatmul

variable (m : (ℓ : Loc nD τ sig) → Buf (Elt Ideal) ℓ) (ρ : Dev nD → PrngReg)

/-- The product of the argument arrays as launched, on core c. -/
abbrev result (c : Dev nD) : FVec Ideal S2x16x2048x2048 .f32 :=
  product (m ((c : Thread nD τ).loc main_arg0)) (m ((c : Thread nD τ).loc main_arg1))
    (m ((c : Thread nD τ).loc main_arg2)) (m ((c : Thread nD τ).loc main_arg3))

theorem origin4 : (![0, 0, 0, 0] : Fin 4 → Nat) = fun _ => 0 := funext fun a => by fin_cases a <;> rfl

/-- The index maps over the 64 points: every input window sits at the output's batch and head; A's tile and A's steps
    also at its row tile; all else at 0. The output's block indices stay in range. -/
theorem idx_facts : ∀ t : Fin cfg0.N,
    (win0_0.index t (0 : Fin 4) = win0_5.index t (0 : Fin 4) ∧ win0_0.index t (1 : Fin 4) = win0_5.index t (1 : Fin 4)
      ∧ win0_0.index t (2 : Fin 4) = win0_5.index t (2 : Fin 4) ∧ win0_0.index t (3 : Fin 4) = 0)
    ∧ (win0_1.index t (0 : Fin 4) = win0_5.index t (0 : Fin 4) ∧ win0_1.index t (1 : Fin 4) = win0_5.index t (1 : Fin 4)
      ∧ win0_1.index t (2 : Fin 4) = 0 ∧ win0_1.index t (3 : Fin 4) = 0)
    ∧ (win0_2.index t (0 : Fin 4) = win0_5.index t (0 : Fin 4) ∧ win0_2.index t (1 : Fin 4) = win0_5.index t (1 : Fin 4)
      ∧ win0_2.index t (2 : Fin 4) = 0 ∧ win0_2.index t (3 : Fin 4) = 0)
    ∧ (win0_3.index t (0 : Fin 4) = win0_5.index t (0 : Fin 4) ∧ win0_3.index t (1 : Fin 4) = win0_5.index t (1 : Fin 4)
      ∧ win0_3.index t (2 : Fin 4) = win0_5.index t (2 : Fin 4) ∧ win0_3.index t (3 : Fin 4) = 0)
    ∧ (win0_4.index t (0 : Fin 4) = win0_5.index t (0 : Fin 4) ∧ win0_4.index t (1 : Fin 4) = win0_5.index t (1 : Fin 4)
      ∧ win0_4.index t (2 : Fin 4) = 0 ∧ win0_4.index t (3 : Fin 4) = 0)
    ∧ (win0_5.index t (0 : Fin 4) ≤ 1 ∧ win0_5.index t (1 : Fin 4) ≤ 15 ∧ win0_5.index t (2 : Fin 4) ≤ 1
      ∧ win0_5.index t (3 : Fin 4) = 0) :=
  (by decide +kernel : ∀ t : Fin grid0.N, _)

/-- Every (batch, head, row tile) is some point's. -/
theorem idx_onto : ∀ (b : Fin 2) (h : Fin 16) (mt : Fin 2), ∃ t : Fin cfg0.N, win0_5.index t = ![b.val, h.val, mt.val, 0] :=
  (by decide +kernel : ∀ (b : Fin 2) (h : Fin 16) (mt : Fin 2), ∃ t : Fin grid0.N, win0_5.index t = ![b.val, h.val, mt.val, 0])

set_option maxHeartbeats 4000000 in
/-- Entry (p, q) of the block of point t is the product's entry at the array index (b, h, r, n) under it. -/
theorem point_entry (c : Dev nD) (t : Fin cfg0.N) (y0 y1 : Fin 1) (p : Fin 1024) (q : Fin 2048)
    (b : Fin 2) (h : Fin 16) (r : Fin 2048) (n : Fin 2048)
    (h0 : b.val = win0_5.index t (0 : Fin 4) * 1 + 1 * y0.val)
    (h1 : h.val = win0_5.index t (1 : Fin 4) * 1 + 1 * y1.val)
    (h2 : r.val = win0_5.index t (2 : Fin 4) * 1024 + 1 * p.val)
    (h3 : n.val = win0_5.index t (3 : Fin 4) * 2048 + 1 * q.val) :
    k0_pay2 (iblk m c 0 t) (iblk m c 1 t) (iblk m c 2 t) (iblk m c 3 t) (iblk m c 4 t) (ix2 p q)
      = result m c (ix4 b h r n) := by
  obtain ⟨⟨a0, a1, a2, a3⟩, ⟨b0, b1, b2, b3⟩, ⟨c0, c1, c2, c3⟩, ⟨d0, d1, d2, d3⟩, ⟨e0, e1, e2, e3⟩, ⟨f0, f1, f2, f3⟩⟩ := idx_facts t
  have hy0 : y0.val < 1 := y0.isLt
  have hy1 : y1.val < 1 := y1.isLt
  refine (Block.block_apply (iblk m c 0 t) (iblk m c 1 t) (iblk m c 2 t) (iblk m c 3 t) (iblk m c 4 t) p q).trans ?_
  show _ = ∑ k : Fin 128,
    fake (m ((c : Thread nD τ).loc main_arg0) (ix4 b h r k))
        (stepAt (m ((c : Thread nD τ).loc main_arg2)) (grp h) (rowBlk r))
      * fake (m ((c : Thread nD τ).loc main_arg1) (ix4 b h k n))
        (stepAt (m ((c : Thread nD τ).loc main_arg3)) (grp h) (depthBlk k))
  refine Finset.sum_congr rfl fun k _ => ?_
  -- A's tile
  have eA : iblk m c 3 t (ix4 0 0 p k) = m ((c : Thread nD τ).loc main_arg0) (ix4 b h r k) := by
    show V m c main_arg0 (((cfg0.win 3).blk t).view.emb (ix4 0 0 p k)) = _
    rw [V_main_arg0]
    refine congrArg _ (funext fun a => Fin.ext ?_)
    match a with
    | ⟨0, _⟩ => show win0_3.index t (0 : Fin 4) * 1 + 1 * 0 = b.val; omega
    | ⟨1, _⟩ => show win0_3.index t (1 : Fin 4) * 1 + 1 * 0 = h.val; omega
    | ⟨2, _⟩ => show win0_3.index t (2 : Fin 4) * 1024 + 1 * p.val = r.val; omega
    | ⟨3, _⟩ => show win0_3.index t (3 : Fin 4) * 128 + 1 * k.val = k.val; omega
  -- B's slab
  have eB : iblk m c 4 t (ix4 0 0 k q) = m ((c : Thread nD τ).loc main_arg1) (ix4 b h k n) := by
    show V m c main_arg1 (((cfg0.win 4).blk t).view.emb (ix4 0 0 k q)) = _
    rw [V_main_arg1]
    refine congrArg _ (funext fun a => Fin.ext ?_)
    match a with
    | ⟨0, _⟩ => show win0_4.index t (0 : Fin 4) * 1 + 1 * 0 = b.val; omega
    | ⟨1, _⟩ => show win0_4.index t (1 : Fin 4) * 1 + 1 * 0 = h.val; omega
    | ⟨2, _⟩ => show win0_4.index t (2 : Fin 4) * 128 + 1 * k.val = k.val; omega
    | ⟨3, _⟩ => show win0_4.index t (3 : Fin 4) * 2048 + 1 * q.val = n.val; omega
  -- A's steps of the tile's rows
  have eS : iblk m c 0 t (ix4 0 0 p 0) = stepAt (m ((c : Thread nD τ).loc main_arg2)) (grp h) (rowBlk r) := by
    show (V m c main_v15 : S2x16x2048x1.Idx → Ideal .f32) (((cfg0.win 0).blk t).view.emb (ix4 0 0 p 0)) = _
    have e : ((cfg0.win 0).blk t).view.emb (ix4 0 0 p 0) = (ix4 b h r 0 : S2x16x2048x1.Idx) := funext fun a => Fin.ext (by
      match a with
      | ⟨0, _⟩ => show win0_0.index t (0 : Fin 4) * 1 + 1 * 0 = b.val; omega
      | ⟨1, _⟩ => show win0_0.index t (1 : Fin 4) * 1 + 1 * 0 = h.val; omega
      | ⟨2, _⟩ => show win0_0.index t (2 : Fin 4) * 1024 + 1 * p.val = r.val; omega
      | ⟨3, _⟩ => show win0_0.index t (3 : Fin 4) * 1 + 1 * 0 = 0; omega)
    rw [e]
    exact Scales.rowScale_apply m c b h r
  -- B's steps along the lanes
  have eR : iblk m c 1 t (ix4 0 0 0 k) = stepAt (m ((c : Thread nD τ).loc main_arg3)) (grp h) (depthBlk k) := by
    show (V m c main_v27 : S2x16x1x128.Idx → Ideal .f32) (((cfg0.win 1).blk t).view.emb (ix4 0 0 0 k)) = _
    have e : ((cfg0.win 1).blk t).view.emb (ix4 0 0 0 k) = (ix4 b h 0 k : S2x16x1x128.Idx) := funext fun a => Fin.ext (by
      match a with
      | ⟨0, _⟩ => show win0_1.index t (0 : Fin 4) * 1 + 1 * 0 = b.val; omega
      | ⟨1, _⟩ => show win0_1.index t (1 : Fin 4) * 1 + 1 * 0 = h.val; omega
      | ⟨2, _⟩ => show win0_1.index t (2 : Fin 4) * 1 + 1 * 0 = 0; omega
      | ⟨3, _⟩ => show win0_1.index t (3 : Fin 4) * 128 + 1 * k.val = k.val; omega)
    rw [e]
    exact Scales.depthScaleRow_apply m c b h k
  -- B's steps as a column
  have eC : iblk m c 2 t (ix4 0 0 k 0) = stepAt (m ((c : Thread nD τ).loc main_arg3)) (grp h) (depthBlk k) := by
    show (V m c main_v30 : S2x16x128x1.Idx → Ideal .f32) (((cfg0.win 2).blk t).view.emb (ix4 0 0 k 0)) = _
    have e : ((cfg0.win 2).blk t).view.emb (ix4 0 0 k 0) = (ix4 b h k 0 : S2x16x128x1.Idx) := funext fun a => Fin.ext (by
      match a with
      | ⟨0, _⟩ => show win0_2.index t (0 : Fin 4) * 1 + 1 * 0 = b.val; omega
      | ⟨1, _⟩ => show win0_2.index t (1 : Fin 4) * 1 + 1 * 0 = h.val; omega
      | ⟨2, _⟩ => show win0_2.index t (2 : Fin 4) * 128 + 1 * k.val = k.val; omega
      | ⟨3, _⟩ => show win0_2.index t (3 : Fin 4) * 1 + 1 * 0 = 0; omega)
    rw [e]
    exact Scales.depthScaleCol_apply m c b h k
  rw [eA, eB, eS, eR, eC]
  exact step_across _ _ _ _

set_option maxHeartbeats 4000000 in
/-- WHAT POINT t WRITES BACK is block t of the product. -/
theorem flushed_eq (c : Dev nD) (t : Fin cfg0.N) :
    (dats m 0 c).flushed 5 t = ((cfg0.win 5).blk t).view.read (Elt Ideal) (result m c) := by
  rw [Value.flushed5]
  unfold out0_5
  rw [View.ld_unit_zero (S := S1x1x1024x1) origin4, View.ld_unit_zero (S := S1x1x1x128) origin4,
    View.ld_unit_zero (S := S1x1x128x1) origin4, View.ld_unit_zero (S := S1x1x1024x128) origin4,
    View.ld_unit_zero (S := S1x1x128x2048) origin4]
  funext y
  show View.canon ([⟨r0_5, k0_pay1 (k0_pay2 (iblk m c 0 t) (iblk m c 1 t) (iblk m c 2 t) (iblk m c 3 t) (iblk m c 4 t))⟩] :
      List (View.Piece (Elt Ideal) S1x1x1024x2048 .f32)) y
    = result m c (((cfg0.win 5).blk t).view.emb y)
  refine (Value.canon5_eq (iblk m c 0 t) (iblk m c 1 t) (iblk m c 2 t) (iblk m c 3 t) (iblk m c 4 t) y).trans ?_
  show k0_pay2 (iblk m c 0 t) (iblk m c 1 t) (iblk m c 2 t) (iblk m c 3 t) (iblk m c 4 t) (Value.ix5_0 y) = _
  have ey : Value.ix5_0 y = ix2 (y 2) (y 3) := funext fun a => by
    match a with
    | ⟨0, _⟩ => rfl
    | ⟨1, _⟩ => rfl
  rw [ey]
  obtain ⟨b, h, r, n, hi⟩ : ∃ (b : Fin 2) (h : Fin 16) (r : Fin 2048) (n : Fin 2048),
      (((cfg0.win 5).blk t).view.emb y : S2x16x2048x2048.Idx) = ix4 b h r n := ⟨_, _, _, _, eq_ix4 _⟩
  rw [hi]
  exact point_entry m c t (y 0) (y 1) (y 2) (y 3) b h r n
    (congrArg Fin.val (congrFun hi 0)).symm (congrArg Fin.val (congrFun hi 1)).symm
    (congrArg Fin.val (congrFun hi 2)).symm (congrArg Fin.val (congrFun hi 3)).symm

/-- An index of the array is in point t's block iff each coordinate is in the block's range on its axis. -/
theorem mem_blk (t : Fin cfg0.N) (i : S2x16x2048x2048.Idx) :
    i ∈ ((cfg0.win 5).blk t).view.set ↔ ∀ a : Fin 4, win0_5.index t a * S1x1x1024x2048.size a ≤ (i a).val
      ∧ (i a).val < win0_5.index t a * S1x1x1024x2048.size a + S1x1x1024x2048.size a := by
  show i ∈ ((View.whole main_v31).slice (win0_5.rect t)).set ↔ _
  rw [View.set_slice_whole, Rect.mem_set_unit]
  exact Iff.rfl

/-- Every index of the array is in some point's block. -/
theorem covered (i : S2x16x2048x2048.Idx) :
    ∃ t : Fin cfg0.N, (cfg0.win 5).flush t = true ∧ i ∈ ((cfg0.win 5).blk t).view.set := by
  have hi0 : (i 0).val < 2 := (i 0).isLt
  have hi1 : (i 1).val < 16 := (i 1).isLt
  have hi2 : (i 2).val < 2048 := (i 2).isLt
  have hi3 : (i 3).val < 2048 := (i 3).isLt
  obtain ⟨t, ht⟩ := idx_onto ⟨(i 0).val, hi0⟩ ⟨(i 1).val, hi1⟩ ⟨(i 2).val / 1024, by omega⟩
  have q0 : win0_5.index t (0 : Fin 4) = (i 0).val := congrFun ht 0
  have q1 : win0_5.index t (1 : Fin 4) = (i 1).val := congrFun ht 1
  have q2 : win0_5.index t (2 : Fin 4) = (i 2).val / 1024 := congrFun ht 2
  have q3 : win0_5.index t (3 : Fin 4) = 0 := congrFun ht 3
  refine ⟨t, flush0_5 t, ?_⟩
  rw [mem_blk]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 1024 ≤ (i 2).val ∧ (i 2).val < win0_5.index t (2 : Fin 4) * 1024 + 1024; omega
  | ⟨3, _⟩ => show win0_5.index t (3 : Fin 4) * 2048 ≤ (i 3).val ∧ (i 3).val < win0_5.index t (3 : Fin 4) * 2048 + 2048; omega

/-- THE ARRAY after the run is the product. -/
theorem final (c : Dev nD) : (dats m 0 c).arrAt 5 cfg0.N = result m c :=
  (dats m 0 c).arrAt_eq_of_cover 5 (result m c) (fun t _ => flushed_eq m c t) covered

/-- The kernel's run: the result array ends at the product of the argument arrays, the arguments unchanged. -/
theorem run : θ_run defs (onTc (τ := τ) (main (F := Ideal))) ⟨m, fun _ => 0, ρ⟩ fun r => ∀ c : Dev nD,
      r.2.mem ((c : Thread nD τ).loc main_v31) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.RefValue.lean ====
/-
  The reference's result, entry by entry, is the product of the two fake-quantised operands.

  The reference reshapes A to [2, 4, 4, 4, 512, 1, 128] — head h split as (h div 4, h mod 4), row r as
  (r div 512, r mod 512) — so that the table of steps [1, 4, 1, 4, 1, 1, 1] broadcasts against it: the entry at
  (b, h, r, k) meets step (h div 4, r div 512). It divides, rounds to even, clamps to [-128, 127], multiplies by the
  step again and reshapes back. B goes the same way through [2, 4, 4, 4, 32, 1, 2048], depth k split as
  (k div 32, k mod 32), and meets step (h div 4, k div 32). The batched dot_general then sums over the depth.
  The two reshapes per operand are inverse to each other at matching row-major positions.
-/
import proofs.«111576_j68839735820689_2_alg».proof.Proof.Gen.ReferenceIdeal.Read
import proofs.«111576_j68839735820689_2_alg».proof.Proof.QuantSpec

noncomputable section

open scoped BigOperators

namespace Cert.ReferenceIdeal.RefValue

open Cert.ReferenceIdeal Cert.ReferenceIdeal.Gen Cert.ReferenceIdeal.Read Idealize.ShloMosaic Idealize.ShloMosaic.ValueIdx
open Cert.QuantMatmul

/-- Where entry (b, h, r, k) of A sits in the split layout. -/
def splitA (b : Fin 2) (h : Fin 16) (r : Fin 2048) (k : Fin 128) : S2x4x4x4x512x1x128.Idx :=
  ix7 b (grp h) ⟨h.val % 4, Nat.mod_lt _ (by decide)⟩ (rowBlk r) ⟨r.val % 512, Nat.mod_lt _ (by decide)⟩ 0 k

/-- Where entry (b, h, k, n) of B sits in the split layout. -/
def splitB (b : Fin 2) (h : Fin 16) (k : Fin 128) (n : Fin 2048) : S2x4x4x4x32x1x2048.Idx :=
  ix7 b (grp h) ⟨h.val % 4, Nat.mod_lt _ (by decide)⟩ (depthBlk k) ⟨k.val % 32, Nat.mod_lt _ (by decide)⟩ 0 n

theorem posA (b : Fin 2) (h : Fin 16) (r : Fin 2048) (k : Fin 128) :
    (S2x4x4x4x512x1x128.rowMajor (splitA b h r k)).val = (S2x16x2048x128.rowMajor (ix4 b h r k)).val := by
  have hh : h.val < 16 := h.isLt
  have hr : r.val < 2048 := r.isLt
  rw [rowMajor_val_seven, Shape.rowMajor_val_four]
  exact (by omega : (((((b.val * 4 + h.val / 4) * 4 + h.val % 4) * 4 + r.val / 512) * 512 + r.val % 512) * 1 + 0) * 128 + k.val
    = ((b.val * 16 + h.val) * 2048 + r.val) * 128 + k.val)

theorem posB (b : Fin 2) (h : Fin 16) (k : Fin 128) (n : Fin 2048) :
    (S2x4x4x4x32x1x2048.rowMajor (splitB b h k n)).val = (S2x16x128x2048.rowMajor (ix4 b h k n)).val := by
  have hh : h.val < 16 := h.isLt
  have hk : k.val < 128 := k.isLt
  rw [rowMajor_val_seven, Shape.rowMajor_val_four]
  exact (by omega : (((((b.val * 4 + h.val / 4) * 4 + h.val % 4) * 4 + k.val / 32) * 32 + k.val % 32) * 1 + 0) * 2048 + n.val
    = ((b.val * 16 + h.val) * 128 + k.val) * 2048 + n.val)

/-- The step an entry of A meets. -/
theorem stepIdxA (b : Fin 2) (h : Fin 16) (r : Fin 2048) (k : Fin 128) :
    idx_main_v1 (splitA b h r k) = ix7 0 (grp h) 0 (rowBlk r) 0 0 0 :=
  funext fun a => Fin.ext (by
    match a with
    | ⟨0, _⟩ => rfl | ⟨1, _⟩ => rfl | ⟨2, _⟩ => rfl | ⟨3, _⟩ => rfl | ⟨4, _⟩ => rfl | ⟨5, _⟩ => rfl | ⟨6, _⟩ => rfl)

/-- The step an entry of B meets. -/
theorem stepIdxB (b : Fin 2) (h : Fin 16) (k : Fin 128) (n : Fin 2048) :
    idx_main_v9 (splitB b h k n) = ix7 0 (grp h) 0 (depthBlk k) 0 0 0 :=
  funext fun a => Fin.ext (by
    match a with
    | ⟨0, _⟩ => rfl | ⟨1, _⟩ => rfl | ⟨2, _⟩ => rfl | ⟨3, _⟩ => rfl | ⟨4, _⟩ => rfl | ⟨5, _⟩ => rfl | ⟨6, _⟩ => rfl)

/-- The left operand of the product at (b, h, r, k): A fake-quantised. -/
theorem left_apply (x0 : FVec Ideal S2x16x2048x128 .f32) (x2 : FVec Ideal S1x4x1x4x1x1x1 .f32)
    (b : Fin 2) (h : Fin 16) (r : Fin 2048) (k : Fin 128) :
    val_main_v7 (F := Ideal) x0 x2 (ix4 b h r k) = fake (x0 (ix4 b h r k)) (stepAt x2 (grp h) (rowBlk r)) := by
  have e7 : val_main_v7 (F := Ideal) x0 x2 (ix4 b h r k) = val_main_v6 (F := Ideal) x0 x2 (splitA b h r k) :=
    shapeCast_apply _ shapeCasts_S2x4x4x4x512x1x128_S2x16x2048x128 (ix4 b h r k) (splitA b h r k) (posA b h r k)
  have e0 : val_main_v0 (F := Ideal) x0 (splitA b h r k) = x0 (ix4 b h r k) :=
    shapeCast_apply x0 shapeCasts_S2x16x2048x128_S2x4x4x4x512x1x128 (splitA b h r k) (ix4 b h r k) (posA b h r k).symm
  have e1 : val_main_v1 (F := Ideal) x2 (splitA b h r k) = stepAt x2 (grp h) (rowBlk r) := by
    rw [val_main_v1_apply, stepIdxA]; rfl
  have e5 : val_main_v5 (F := Ideal) x2 (splitA b h r k) = stepAt x2 (grp h) (rowBlk r) := by
    rw [val_main_v5_apply]; exact congrArg x2 (stepIdxA b h r k)
  rw [e7]
  show min (Ideal.ofBits .f32 0x42FE0000#32) (max (Ideal.ofBits .f32 0xC3000000#32)
      (Ideal.liftRound Ideal.roundHalfEven (Ideal.div (val_main_v0 (F := Ideal) x0 (splitA b h r k))
        (val_main_v1 (F := Ideal) x2 (splitA b h r k)))))
      * val_main_v5 (F := Ideal) x2 (splitA b h r k) = _
  rw [e0, e1, e5]
  rfl

/-- The right operand of the product at (b, h, k, n): B fake-quantised. -/
theorem right_apply (x1 : FVec Ideal S2x16x128x2048 .f32) (x3 : FVec Ideal S1x4x1x4x1x1x1 .f32)
    (b : Fin 2) (h : Fin 16) (k : Fin 128) (n : Fin 2048) :
    val_main_v15 (F := Ideal) x1 x3 (ix4 b h k n) = fake (x1 (ix4 b h k n)) (stepAt x3 (grp h) (depthBlk k)) := by
  have e15 : val_main_v15 (F := Ideal) x1 x3 (ix4 b h k n) = val_main_v14 (F := Ideal) x1 x3 (splitB b h k n) :=
    shapeCast_apply _ shapeCasts_S2x4x4x4x32x1x2048_S2x16x128x2048 (ix4 b h k n) (splitB b h k n) (posB b h k n)
  have e8 : val_main_v8 (F := Ideal) x1 (splitB b h k n) = x1 (ix4 b h k n) :=
    shapeCast_apply x1 shapeCasts_S2x16x128x2048_S2x4x4x4x32x1x2048 (splitB b h k n) (ix4 b h k n) (posB b h k n).symm
  have e9 : val_main_v9 (F := Ideal) x3 (splitB b h k n) = stepAt x3 (grp h) (depthBlk k) := by
    rw [val_main_v9_apply]; exact congrArg x3 (stepIdxB b h k n)
  have e13 : val_main_v13 (F := Ideal) x3 (splitB b h k n) = stepAt x3 (grp h) (depthBlk k) := by
    rw [val_main_v13_apply]; exact congrArg x3 (stepIdxB b h k n)
  rw [e15]
  show min (Ideal.ofBits .f32 0x42FE0000#32) (max (Ideal.ofBits .f32 0xC3000000#32)
      (Ideal.liftRound Ideal.roundHalfEven (Ideal.div (val_main_v8 (F := Ideal) x1 (splitB b h k n))
        (val_main_v9 (F := Ideal) x3 (splitB b h k n)))))
      * val_main_v13 (F := Ideal) x3 (splitB b h k n) = _
  rw [e8, e9, e13]
  rfl

/-- THE REFERENCE'S RESULT is the product of the fake-quantised operands. -/
theorem result_eq (x0 : FVec Ideal S2x16x2048x128 .f32) (x1 : FVec Ideal S2x16x128x2048 .f32)
    (x2 x3 : FVec Ideal S1x4x1x4x1x1x1 .f32) :
    val_main_v16 (F := Ideal) x0 x1 x2 x3 = product x0 x1 x2 x3 := by
  funext i
  obtain ⟨b, h, r, n, rfl⟩ : ∃ (b : Fin 2) (h : Fin 16) (r : Fin 2048) (n : Fin 2048), i = ix4 b h r n :=
    ⟨i 0, i 1, i 2, i 3, eq_ix4 i⟩
  rw [val_main_v16_apply]
  show _ = ∑ k : Fin 128, fake (x0 (ix4 b h r k)) (stepAt x2 (grp h) (rowBlk r))
    * fake (x1 (ix4 b h k n)) (stepAt x3 (grp h) (depthBlk k))
  refine Finset.sum_congr rfl fun k _ => ?_
  have el : lidx_main_v16 (ix4 b h r n) k = ix4 b h r k := funext fun a => Fin.ext (by
    match a with
    | ⟨0, _⟩ => rfl | ⟨1, _⟩ => rfl | ⟨2, _⟩ => rfl | ⟨3, _⟩ => rfl)
  have er : ridx_main_v16 (ix4 b h r n) k = ix4 b h k n := funext fun a => Fin.ext (by
    match a with
    | ⟨0, _⟩ => rfl | ⟨1, _⟩ => rfl | ⟨2, _⟩ => rfl | ⟨3, _⟩ => rfl)
  rw [el, er, left_apply, right_apply]

end Cert.ReferenceIdeal.RefValue

end
-- ==== Proof.lean ====
/-
  A batched matrix product of two blockwise fake-quantised operands: a tiled kernel against the plain reference, equal
  entry by entry over the extended reals.

  Both programs compute, at (b, h, r, n), the sum over the depth k of
      fake A(b,h,r,k) sA(h,r) * fake B(b,h,k,n) sB(h,k),     fake x s = min 127 (max (-128) (roundHalfEven (x / s))) * s,
  with sA the step of head group h div 4 and row block r div 512, sB the step of head group h div 4 and depth block
  k div 32 (Proof/QuantSpec.lean: `product`).
    * The reference gets there by reshaping each operand so that its table of steps broadcasts against it, and one
      batched dot_general (Proof/RefValue.lean, over the generated reading of its run).
    * The kernel visits 64 grid points (batch, head, row tile of 1024). The host first lays the steps out per row and per
      depth by a gather through the integer vector  head div 4  (Proof/HostScales.lean). The body forms
      ((level a * sA) * sB) on A's tile and level b alone on B's slab, and multiplies the tiles (Proof/Payload.lean):
      B's step has moved across each product, which multiplication's commutativity and associativity on the extended
      reals allow for any values. The blocks tile the result array (Proof/Blocks.lean).
  The idealisation rewrote nothing in the kernel, so the kernel-to-idealised-kernel claim is trivial; the three frame
  claims are the generated frames (the reference's is its generated run with the result forgotten).
-/
import proofs.«111576_j68839735820689_2_alg».proof.Defs
import proofs.«111576_j68839735820689_2_alg».proof.Proof.Gen.Kernel
import proofs.«111576_j68839735820689_2_alg».proof.Proof.Gen.Kernel.Skeleton
import proofs.«111576_j68839735820689_2_alg».proof.Proof.Gen.Kernel.Launch
import proofs.«111576_j68839735820689_2_alg».proof.Proof.Gen.Kernel.Points
import proofs.«111576_j68839735820689_2_alg».proof.Proof.Gen.Kernel.Frame
import proofs.«111576_j68839735820689_2_alg».proof.Proof.Gen.KernelIdeal
import proofs.«111576_j68839735820689_2_alg».proof.Proof.Gen.KernelIdeal.Skeleton
import proofs.«111576_j68839735820689_2_alg».proof.Proof.Gen.KernelIdeal.Launch
import proofs.«111576_j68839735820689_2_alg».proof.Proof.Gen.KernelIdeal.Points
import proofs.«111576_j68839735820689_2_alg».proof.Proof.Gen.KernelIdeal.Frame
import proofs.«111576_j68839735820689_2_alg».proof.Proof.Gen.ReferenceIdeal
import proofs.«111576_j68839735820689_2_alg».proof.Proof.Gen.Pre_finite_inputs
import proofs.«111576_j68839735820689_2_alg».proof.Proof.Gen.KernelIdeal.Value
import proofs.«111576_j68839735820689_2_alg».proof.Proof.Gen.ReferenceIdeal.Run
import proofs.«111576_j68839735820689_2_alg».proof.Proof.Gen.ReferenceIdeal.Read
import proofs.«111576_j68839735820689_2_alg».proof.Proof.Blocks
import proofs.«111576_j68839735820689_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at the product of the argument arrays, which agree. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
